-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S640000x128 : Shape := ⟨2, ![640000, 128]⟩
abbrev S256x128 : Shape := ⟨2, ![256, 128]⟩
abbrev S128 : Shape := ⟨1, ![128]⟩
abbrev S640000 : Shape := ⟨1, ![640000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S640000x128 : S_.BroadcastsInDim S640000x128 (![] : Fin 0 → Fin S640000x128.rank)
  reducesTo_S640000x128_S_d0_1 : S640000x128.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S256x128 .f32) (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S256x128 .f32 := Host.absf main_arg4
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S50000x128 .f32) (main_arg1 : FVec F S640000x128 .f32) (main_arg2 : FVec F S256x128 .f32) (main_arg3 : FVec F S128 .f32) (main_arg4 : FVec F S256x128 .f32) (main_arg5 : FVec F S128 .f32) (main_arg6 : IVec S640000 32) (main_arg7 : IVec S640000 32) (main_arg8 : IVec S640000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S640000x128 .f32 := Host.absf main_arg1
  let main_cst_0 : FVec F S_ .f32 := constant S_ .f32 0x7F800000#32
  let main_v5 : FVec F S640000x128 .f32 := broadcastInDim S640000x128 ![] bcast_S_S640000x128 main_cst_0
  let main_v6 : IVec S640000x128 1 := cmpf .olt main_v4 main_v5
  let main_c_1 : IVec S_ 1 := constantI S_ 1 1#1
  let main_v7 : IVec S_ 1 := (fun x v => Host.reduce IntOp.andi x v reducesTo_S640000x128_S_d0_1 h_S_) main_v6 main_c_1
  let main_v8 : IVec S_ 1 := andi main_v3 main_v7
  let main_v9 : FVec F S256x128 .f32 := Host.absf main_arg2
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S50000x128 : Shape := ⟨2, ![50000, 128]⟩
abbrev S640000x128 : Shape := ⟨2, ![640000, 128]⟩
abbrev S256x128 : Shape := ⟨2, ![256, 128]⟩
abbrev S128 : Shape := ⟨1, ![128]⟩
abbrev S640000 : Shape := ⟨1, ![640000]⟩
abbrev S_ : Shape := ⟨0, ![]⟩
abbrev S50000 : Shape := ⟨1, ![50000]⟩
abbrev S640000x1 : Shape := ⟨2, ![640000, 1]⟩
abbrev S50000x1 : Shape := ⟨2, ![50000, 1]⟩
abbrev S1x128 : Shape := ⟨2, ![1, 128]⟩
abbrev S8000x128 : Shape := ⟨2, ![8000, 128]⟩
abbrev S8000x256 : Shape := ⟨2, ![8000, 256]⟩
abbrev S5000x128 : Shape := ⟨2, ![5000, 128]⟩
abbrev S5000x1 : Shape := ⟨2, ![5000, 1]⟩

abbrev nBuf : Space → Nat
  | .hbm => 51
  | .vmem => 32
  | .smem => 0
  | _ => 0

abbrev bufTy : (tb : Table) → Fin (tcTables nBuf tb) → BufTy
  | .hbm, ⟨0, _⟩ => ⟨S50000x128, .f32⟩
  | .hbm, ⟨1, _⟩ => ⟨S640000x128, .f32⟩
  | .hbm, ⟨2, _⟩ => ⟨S256x128, .f32⟩
  | .hbm, ⟨3, _⟩ => ⟨S128, .f32⟩
  | .hbm, ⟨4, _⟩ => ⟨S256x128, .f32⟩
  | .hbm, ⟨5, _⟩ => ⟨S128, .f32⟩
  | .hbm, ⟨6, _⟩ => ⟨S640000, .i32⟩
  | .hbm, ⟨7, _⟩ => ⟨S640000, .i32⟩
  | .hbm, ⟨8, _⟩ => ⟨S640000, .i32⟩
  | .hbm, ⟨9, _⟩ => ⟨S_, .f32⟩
  | .hbm, ⟨10, _⟩ => ⟨S640000, .f32⟩
  | .hbm, ⟨11, _⟩ => ⟨S_, .f32⟩
  | .hbm, ⟨12, _⟩ => ⟨S50000, .f32⟩
  | .hbm, ⟨13, _⟩ => ⟨S640000x1, .i32⟩
  | .hbm, ⟨14, _⟩ => ⟨S50000, .f32⟩
  | .hbm, ⟨15, _⟩ => ⟨S_, .f32⟩
  | .hbm, ⟨16, _⟩ => ⟨S50000, .f32⟩
  | .hbm, ⟨17, _⟩ => ⟨S50000, .f32⟩
  | .hbm, ⟨18, _⟩ => ⟨S50000x1, .f32⟩
  | .hbm, ⟨19, _⟩ => ⟨S_, .i32⟩
  | .hbm, ⟨20, _⟩ => ⟨S640000, .i32⟩
  | .hbm, ⟨21, _⟩ => ⟨S640000, .i1⟩
  | .hbm, ⟨22, _⟩ => ⟨S_, .i32⟩
  | .hbm, ⟨23, _⟩ => ⟨S640000, .i32⟩
  | .hbm, ⟨24, _⟩ => ⟨S640000, .i32⟩
  | .hbm, ⟨25, _⟩ => ⟨S640000, .i32⟩
  | .hbm, ⟨26, _⟩ => ⟨S640000x1, .i32⟩
  | .hbm, ⟨27, _⟩ => ⟨S640000x128, .f32⟩
  | .hbm, ⟨28, _⟩ => ⟨S1x128, .f32⟩
  | .hbm, ⟨29, _⟩ => ⟨S640000x128, .f32⟩
  | .hbm, ⟨30, _⟩ => ⟨S_, .f32⟩
  | .hbm, ⟨31, _⟩ => ⟨S50000x128, .f32⟩
  | .hbm, ⟨32, _⟩ => ⟨S640000x1, .i32⟩
  | .hbm, ⟨33, _⟩ => ⟨S50000x128, .f32⟩
  | .hbm, ⟨34, _⟩ => ⟨S50000x128, .f32⟩
  | .hbm, ⟨35, _⟩ => ⟨S_, .i32⟩
  | .hbm, ⟨36, _⟩ => ⟨S640000, .i32⟩
  | .hbm, ⟨37, _⟩ => ⟨S640000, .i1⟩
  | .hbm, ⟨38, _⟩ => ⟨S_, .i32⟩
  | .hbm, ⟨39, _⟩ => ⟨S640000, .i32⟩
  | .hbm, ⟨40, _⟩ => ⟨S640000, .i32⟩
  | .hbm, ⟨41, _⟩ => ⟨S640000, .i32⟩
  | .hbm, ⟨42, _⟩ => ⟨S640000x1, .i32⟩
  | .hbm, ⟨43, _⟩ => ⟨S640000x128, .f32⟩
  | .hbm, ⟨44, _⟩ => ⟨S1x128, .f32⟩
  | .hbm, ⟨45, _⟩ => ⟨S640000x128, .f32⟩
  | .hbm, ⟨46, _⟩ => ⟨S_, .f32⟩
  | .hbm, ⟨47, _⟩ => ⟨S50000x128, .f32⟩
  | .hbm, ⟨48, _⟩ => ⟨S640000x1, .i32⟩
  | .hbm, ⟨49, _⟩ => ⟨S50000x128, .f32⟩
  | .hbm, ⟨50, _⟩ => ⟨S50000x128, .f32⟩
  | .local _ .vmem, ⟨0, _⟩ => ⟨S8000x128, .f32⟩
  | .local _ .vmem, ⟨1, _⟩ => ⟨S8000x128, .f32⟩
  | .local _ .vmem, ⟨2, _⟩ => ⟨S8000x128, .f32⟩
  | .local _ .vmem, ⟨3, _⟩ => ⟨S8000x128, .f32⟩
  | .local _ .vmem, ⟨4, _⟩ => ⟨S256x128, .f32⟩
  | .local _ .vmem, ⟨5, _⟩ => ⟨S1x128, .f32⟩
  | .local _ .vmem, ⟨6, _⟩ => ⟨S8000x128, .f32⟩
  | .local _ .vmem, ⟨7, _⟩ => ⟨S8000x128, .f32⟩
  | .local _ .vmem, ⟨8, _⟩ => ⟨S5000x128, .f32⟩
  | .local _ .vmem, ⟨9, _⟩ => ⟨S5000x128, .f32⟩
  | .local _ .vmem, ⟨10, _⟩ => ⟨S5000x1, .f32⟩
  | .local _ .vmem, ⟨11, _⟩ => ⟨S5000x1, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S8000x128, .f32⟩
  | .local _ .vmem, ⟨17, _⟩ => ⟨S8000x128, .f32⟩
  | .local _ .vmem, ⟨18, _⟩ => ⟨S8000x128, .f32⟩
  | .local _ .vmem, ⟨19, _⟩ => ⟨S8000x128, .f32⟩
  | .local _ .vmem, ⟨20, _⟩ => ⟨S256x128, .f32⟩
  | .local _ .vmem, ⟨21, _⟩ => ⟨S1x128, .f32⟩
  | .local _ .vmem, ⟨22, _⟩ => ⟨S8000x128, .f32⟩
  | .local _ .vmem, ⟨23, _⟩ => ⟨S8000x128, .f32⟩
  | .local _ .vmem, ⟨24, _⟩ => ⟨S5000x128, .f32⟩
  | .local _ .vmem, ⟨25, _⟩ => ⟨S5000x128, .f32⟩
  | .local _ .vmem, ⟨26, _⟩ => ⟨S5000x1, .f32⟩
  | .local _ .vmem, ⟨27, _⟩ => ⟨S5000x1, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c : Ref sig .tc := ⟨.hbm, 19, rfl⟩
abbrev main_v7 : Ref sig .tc := ⟨.hbm, 20, rfl⟩
abbrev main_v8 : Ref sig .tc := ⟨.hbm, 21, rfl⟩
abbrev main_c_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c_4 : Ref sig .tc := ⟨.hbm, 35, rfl⟩
abbrev main_v20 : Ref sig .tc := ⟨.hbm, 36, rfl⟩
abbrev main_v21 : Ref sig .tc := ⟨.hbm, 37, rfl⟩
abbrev main_c_5 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_6 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg2_1 : Ref sig .tc := ⟨.vmem, 29, rfl⟩
abbrev cc3_stg3_0 : Ref sig .tc := ⟨.vmem, 30, rfl⟩
abbrev cc3_stg3_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem4_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem2_1 : DmaSem sig := 29
abbrev cc3_sem3_0 : DmaSem sig := 30
abbrev cc3_sem3_1 : DmaSem sig := 31

abbrev nD : Nat := 1
abbrev τ : Topo := Topo.v7x

variable {F : FTy → Type} [FloatOps F]

abbrev grid0 : Pipeline.Grid := ⟨1, ![80], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![80], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S8000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  bcast_S_S640000 : S_.BroadcastsInDim S640000 (![] : Fin 0 → Fin S640000.rank)
  bcast_S_S50000 : S_.BroadcastsInDim S50000 (![] : Fin 0 → Fin S50000.rank)
  bcast_S640000_S640000x1_0 : S640000.BroadcastsInDim S640000x1 (![0] : Fin 1 → Fin S640000x1.rank)
  bcast_S50000_S50000x1_0 : S50000.BroadcastsInDim S50000x1 (![0] : Fin 1 → Fin S50000x1.rank)
  shapeCasts_S128_S1x128 : S128.ShapeCasts S1x128
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  concatenates_S8000x128_S8000x128_S8000x256_d1 : Shape.Concatenates [S8000x128, S8000x128] S8000x256 1
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8000x128 : S1x128.Broadcasts S8000x128
  bcast_S_S50000x128 : S_.BroadcastsInDim S50000x128 (![] : Fin 0 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  scatter_S50000_S640000x1_S640000_n_0_0_1_wf : ScatterDims.WF S50000 S640000x1 S640000 [] [0] [0] 1
  gather_S50000x128_S640000x1_S640000x128_1_0_n_n_0_1_1128_wf : GatherDims.WF S50000x128 S640000x1 S640000x128 [1] [0] [] [0] [] 1 ![1, 128]
  dot_S8000x256_S256x128_S8000x128_1_0_0_1_n_n_wf : DotDims.WF S8000x256 S256x128 S8000x128 [1] [0] [0] [1] [] []
  scatter_S50000x128_S640000x1_S640000x128_1_0_0_1_wf : ScatterDims.WF S50000x128 S640000x1 S640000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S640000x128.size a
  hwx0_0 : ∀ i : grid0.Coords, EltTy.bits .f32 = 32 ∨ (Rect.block (s := S640000x128) S8000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x128.size a ≤ S640000x128.size a
  hwx0_1 : ∀ i : grid0.Coords, EltTy.bits .f32 = 32 ∨ (Rect.block (s := S640000x128) S8000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S256x128.size a
  hwx0_2 : ∀ i : grid0.Coords, EltTy.bits .f32 = 32 ∨ (Rect.block (s := S256x128) S256x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8000x128.size a ≤ S640000x128.size a
  hwx0_4 : ∀ i : grid0.Coords, EltTy.bits .f32 = 32 ∨ (Rect.block (s := S640000x128) S8000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x128.size a ≤ S640000x128.size a
  hwx2_0 : ∀ i : grid2.Coords, EltTy.bits .f32 = 32 ∨ (Rect.block (s := S640000x128) S8000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8000x128.size a ≤ S640000x128.size a
  hwx2_1 : ∀ i : grid2.Coords, EltTy.bits .f32 = 32 ∨ (Rect.block (s := S640000x128) S8000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x128.size a ≤ S256x128.size a
  hwx2_2 : ∀ i : grid2.Coords, EltTy.bits .f32 = 32 ∨ (Rect.block (s := S256x128) S256x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S8000x128.size a ≤ S640000x128.size a
  hwx2_4 : ∀ i : grid2.Coords, EltTy.bits .f32 = 32 ∨ (Rect.block (s := S640000x128) S8000x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S50000x1.size a
  hwx3_1 : ∀ i : grid3.Coords, EltTy.bits .f32 = 32 ∨ (Rect.block (s := S50000x1) S5000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S50000x128.size a
  hwx3_3 : ∀ i : grid3.Coords, EltTy.bits .f32 = 32 ∨ (Rect.block (s := S50000x128) S5000x128.size (cc3_transform_3 i) (hinb3_3 i)).WholeWords (EltTy.packing .f32)

variable [Facts₀]

def scatter_S50000_S640000x1_S640000_n_0_0_1 : ScatterDims S50000 S640000x1 S640000 where
  updateWindowDims := []
  insertedWindowDims := [0]
  scatterDimsToOperandDims := [0]
  indexVectorDim := 1
  wf := scatter_S50000_S640000x1_S640000_n_0_0_1_wf
def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def dot_S8000x256_S256x128_S8000x128_1_0_0_1_n_n : DotDims S8000x256 S256x128 S8000x128 where
  lhsContracting := [1]
  rhsContracting := [0]
  lhsNonContracting := [0]
  rhsNonContracting := [1]
  lhsBatch := []
  rhsBatch := []
  wf := dot_S8000x256_S256x128_S8000x128_1_0_0_1_n_n_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf

abbrev win0_0 : Pipeline.Window sig grid0 :=
  Pipeline.Window.ofSpec (Memref.whole main_v13) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S8000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v18) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v19) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v26) S8000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg1) S8000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg4) S256x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v27) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v28) S8000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v31) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v6) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v19) S5000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v32) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S50000x128 : Shape := ⟨2, ![50000, 128]⟩
abbrev S640000x128 : Shape := ⟨2, ![640000, 128]⟩
abbrev S256x128 : Shape := ⟨2, ![256, 128]⟩
abbrev S128 : Shape := ⟨1, ![128]⟩
abbrev S640000 : Shape := ⟨1, ![640000]⟩
abbrev S_ : Shape := ⟨0, ![]⟩
abbrev S640000x1 : Shape := ⟨2, ![640000, 1]⟩
abbrev S640000x256 : Shape := ⟨2, ![640000, 256]⟩
abbrev S1x128 : Shape := ⟨2, ![1, 128]⟩
abbrev S50000 : Shape := ⟨1, ![50000]⟩
abbrev S50000x1 : Shape := ⟨2, ![50000, 1]⟩

abbrev nBuf : Space → Nat
  | .hbm => 73
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S640000x128, .f32⟩
  | .hbm, ⟨2, _⟩ => ⟨S256x128, .f32⟩
  | .hbm, ⟨3, _⟩ => ⟨S128, .f32⟩
  | .hbm, ⟨4, _⟩ => ⟨S256x128, .f32⟩
  | .hbm, ⟨5, _⟩ => ⟨S128, .f32⟩
  | .hbm, ⟨6, _⟩ => ⟨S640000, .i32⟩
  | .hbm, ⟨7, _⟩ => ⟨S640000, .i32⟩
  | .hbm, ⟨8, _⟩ => ⟨S640000, .i32⟩
  | .hbm, ⟨9, _⟩ => ⟨S_, .i32⟩
  | .hbm, ⟨10, _⟩ => ⟨S640000, .i32⟩
  | .hbm, ⟨11, _⟩ => ⟨S640000, .i1⟩
  | .hbm, ⟨12, _⟩ => ⟨S_, .i32⟩
  | .hbm, ⟨13, _⟩ => ⟨S640000, .i32⟩
  | .hbm, ⟨14, _⟩ => ⟨S640000, .i32⟩
  | .hbm, ⟨15, _⟩ => ⟨S640000, .i32⟩
  | .hbm, ⟨16, _⟩ => ⟨S640000x1, .i32⟩
  | .hbm, ⟨17, _⟩ => ⟨S640000x128, .f32⟩
  | .hbm, ⟨18, _⟩ => ⟨S640000x256, .f32⟩
  | .hbm, ⟨19, _⟩ => ⟨S640000x128, .f32⟩
  | .hbm, ⟨20, _⟩ => ⟨S1x128, .f32⟩
  | .hbm, ⟨21, _⟩ => ⟨S640000x128, .f32⟩
  | .hbm, ⟨22, _⟩ => ⟨S640000x128, .f32⟩
  | .hbm, ⟨23, _⟩ => ⟨S_, .f32⟩
  | .hbm, ⟨24, _⟩ => ⟨S50000x128, .f32⟩
  | .hbm, ⟨25, _⟩ => ⟨S640000x1, .i32⟩
  | .hbm, ⟨26, _⟩ => ⟨S50000x128, .f32⟩
  | .hbm, ⟨27, _⟩ => ⟨S_, .f32⟩
  | .hbm, ⟨28, _⟩ => ⟨S640000, .f32⟩
  | .hbm, ⟨29, _⟩ => ⟨S_, .f32⟩
  | .hbm, ⟨30, _⟩ => ⟨S50000, .f32⟩
  | .hbm, ⟨31, _⟩ => ⟨S640000x1, .i32⟩
  | .hbm, ⟨32, _⟩ => ⟨S50000, .f32⟩
  | .hbm, ⟨33, _⟩ => ⟨S_, .f32⟩
  | .hbm, ⟨34, _⟩ => ⟨S50000, .f32⟩
  | .hbm, ⟨35, _⟩ => ⟨S50000, .f32⟩
  | .hbm, ⟨36, _⟩ => ⟨S50000x1, .f32⟩
  | .hbm, ⟨37, _⟩ => ⟨S50000x128, .f32⟩
  | .hbm, ⟨38, _⟩ => ⟨S50000x128, .f32⟩
  | .hbm, ⟨39, _⟩ => ⟨S50000x128, .f32⟩
  | .hbm, ⟨40, _⟩ => ⟨S50000x128, .f32⟩
  | .hbm, ⟨41, _⟩ => ⟨S_, .i32⟩
  | .hbm, ⟨42, _⟩ => ⟨S640000, .i32⟩
  | .hbm, ⟨43, _⟩ => ⟨S640000, .i1⟩
  | .hbm, ⟨44, _⟩ => ⟨S_, .i32⟩
  | .hbm, ⟨45, _⟩ => ⟨S640000, .i32⟩
  | .hbm, ⟨46, _⟩ => ⟨S640000, .i32⟩
  | .hbm, ⟨47, _⟩ => ⟨S640000, .i32⟩
  | .hbm, ⟨48, _⟩ => ⟨S640000x1, .i32⟩
  | .hbm, ⟨49, _⟩ => ⟨S640000x128, .f32⟩
  | .hbm, ⟨50, _⟩ => ⟨S640000x256, .f32⟩
  | .hbm, ⟨51, _⟩ => ⟨S640000x128, .f32⟩
  | .hbm, ⟨52, _⟩ => ⟨S1x128, .f32⟩
  | .hbm, ⟨53, _⟩ => ⟨S640000x128, .f32⟩
  | .hbm, ⟨54, _⟩ => ⟨S640000x128, .f32⟩
  | .hbm, ⟨55, _⟩ => ⟨S_, .f32⟩
  | .hbm, ⟨56, _⟩ => ⟨S50000x128, .f32⟩
  | .hbm, ⟨57, _⟩ => ⟨S640000x1, .i32⟩
  | .hbm, ⟨58, _⟩ => ⟨S50000x128, .f32⟩
  | .hbm, ⟨59, _⟩ => ⟨S_, .f32⟩
  | .hbm, ⟨60, _⟩ => ⟨S640000, .f32⟩
  | .hbm, ⟨61, _⟩ => ⟨S_, .f32⟩
  | .hbm, ⟨62, _⟩ => ⟨S50000, .f32⟩
  | .hbm, ⟨63, _⟩ => ⟨S640000x1, .i32⟩
  | .hbm, ⟨64, _⟩ => ⟨S50000, .f32⟩
  | .hbm, ⟨65, _⟩ => ⟨S_, .f32⟩
  | .hbm, ⟨66, _⟩ => ⟨S50000, .f32⟩
  | .hbm, ⟨67, _⟩ => ⟨S50000, .f32⟩
  | .hbm, ⟨68, _⟩ => ⟨S50000x1, .f32⟩
  | .hbm, ⟨69, _⟩ => ⟨S50000x128, .f32⟩
  | .hbm, ⟨70, _⟩ => ⟨S50000x128, .f32⟩
  | .hbm, ⟨71, _⟩ => ⟨S50000x128, .f32⟩
  | .hbm, ⟨72, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c_4 : Ref sig .tc := ⟨.hbm, 41, rfl⟩
abbrev main_v26 : Ref sig .tc := ⟨.hbm, 42, rfl⟩
abbrev main_v27 : Ref sig .tc := ⟨.hbm, 43, rfl⟩
abbrev main_c_5 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_6 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_7 : Ref sig .tc := ⟨.hbm, 59, rfl⟩
abbrev main_v41 : Ref sig .tc := ⟨.hbm, 60, rfl⟩
abbrev main_cst_8 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_9 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩

abbrev nD : Nat := 1
abbrev τ : Topo := Topo.v7x

variable {F : FTy → Type} [FloatOps F]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  concatenates_S640000x128_S640000x128_S640000x256_d1 : Shape.Concatenates [S640000x128, S640000x128] S640000x256 1
  bcast_S128_S1x128_1 : S128.BroadcastsInDim S1x128 (![1] : Fin 1 → Fin S1x128.rank)
  bcast_S1x128_S640000x128_0_1 : S1x128.BroadcastsInDim S640000x128 (![0, 1] : Fin 2 → Fin S640000x128.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  gather_S50000x128_S640000x1_S640000x128_1_0_n_n_0_1_1128_wf : GatherDims.WF S50000x128 S640000x1 S640000x128 [1] [0] [] [0] [] 1 ![1, 128]
  dot_S640000x256_S256x128_S640000x128_1_0_0_1_n_n_wf : DotDims.WF S640000x256 S256x128 S640000x128 [1] [0] [0] [1] [] []
  scatter_S50000x128_S640000x1_S640000x128_1_0_0_1_wf : ScatterDims.WF S50000x128 S640000x1 S640000x128 [1] [0] [0] 1
  scatter_S50000_S640000x1_S640000_n_0_0_1_wf : ScatterDims.WF S50000 S640000x1 S640000 [] [0] [0] 1

variable [Facts₀]

def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def dot_S640000x256_S256x128_S640000x128_1_0_0_1_n_n : DotDims S640000x256 S256x128 S640000x128 where
  lhsContracting := [1]
  rhsContracting := [0]
  lhsNonContracting := [0]
  rhsNonContracting := [1]
  lhsBatch := []
  rhsBatch := []
  wf := dot_S640000x256_S256x128_S640000x128_1_0_0_1_n_n_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def scatter_S50000_S640000x1_S640000_n_0_0_1 : ScatterDims S50000 S640000x1 S640000 where
  updateWindowDims := []
  insertedWindowDims := [0]
  scatterDimsToOperandDims := [0]
  indexVectorDim := 1
  wf := scatter_S50000_S640000x1_S640000_n_0_0_1_wf

class Facts : Prop extends Facts₀ where

variable [Facts]
-- ==== Proof.KernelRun.lean ====
/-
  The idealized kernel's run with its result named.

  The kernel's entry function is four pipelined regions among stretches of host operations. Its generated segments
  say what every unscoped buffer holds at each boundary: a fold from the launch memory through the host operations
  and through what each region's write-backs leave. Here the library's theorem for such a run is applied to those
  segments once more, and the last boundary's contents are read at the result buffer as well as at the arguments:
  every weakly fair execution terminates with the result at the fold's value and the arguments as launched.
-/
import proofs.«178299_j57836029608131_1_alg».proof.Proof.Gen.KernelIdeal.Frame

set_option maxRecDepth 16384

noncomputable section

namespace Cert.KernelIdeal.Named

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel's entry function terminates, nothing faulting, with the result buffer at
    the last boundary's contents and every argument array as launched. -/
theorem run : θ_run defs (onTc (τ := τ) (main (F := F))) ⟨m, fun _ => 0, ρ⟩ (fun r => ∀ c : Dev nD,
      r.2.mem ((c.tc : Thread nD τ).loc main_v32) = W8 m ρ c (Proc.devRef .tc main_v32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v32 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c)⟩)

end Cert.KernelIdeal.Named

end
-- ==== Proof.LibMatmulRows.lean ====
/-
  A rank-2 by rank-2 matrix product read at an index, at the ideal instance.

  For dimension numbers that contract the left operand's axis 1 with the right operand's axis 0 and have no batch
  axis, the entry (r, c) of the product into a zero accumulator is the plain sum over k of a(r, k) * b(k, c) on the
  extended reals; the same for the host's dot_general. The two side facts about the free axes (hl0, hr1) are
  decided once per literal record of dimension numbers.
-/
import Idealize.ShloMosaic.PureOps.Ideal.Laws
import Idealize.ShloMosaic.Lib.ValueIdx

noncomputable section

namespace Idealize.ShloMosaic.MatmulRows

open Idealize.ShloMosaic Idealize.ShloMosaic.ValueIdx

variable {M K N : Nat} {φ₁ φ₂ : FTy}

/-- The operand indices of such a product at output index `i` and contraction position `k` are (i 0, k) and (k, i 1). -/
theorem operand_indices
    (d : DotDims (⟨2, ![M, K]⟩ : Shape) (⟨2, ![K, N]⟩ : Shape) (⟨2, ![M, N]⟩ : Shape))
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (i : (⟨2, ![M, N]⟩ : Shape).Idx) (k : Fin K) :
    d.lhsIdx i ((contrEquiv1 d K hrk hs).symm k) = ix2 (i 0) k
    ∧ d.rhsIdx i ((contrEquiv1 d K hrk hs).symm k) = ix2 k (i 1) := by
  have hk := contrEquiv1_symm_val d K hrk hs k
  constructor
  · funext ax
    apply Fin.ext
    match ax with
    | ⟨0, _⟩ => exact hl0 _ _
    | ⟨1, _⟩ => exact (d.lhsIdx_val_of_single hcl _ _).trans hk
  · funext ax
    apply Fin.ext
    match ax with
    | ⟨0, _⟩ => exact (d.rhsIdx_val_of_single hcr _ _).trans hk
    | ⟨1, _⟩ => exact hr1 _ _

/-- A kernel's matrix product into the zero accumulator, entry by entry. -/
theorem matmul_zero_apply
    (d : DotDims (⟨2, ![M, K]⟩ : Shape) (⟨2, ![K, N]⟩ : Shape) (⟨2, ![M, N]⟩ : Shape)) (prec : Option ContractPrecision)
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (a : FVec Ideal (⟨2, ![M, K]⟩ : Shape) φ₁) (b : FVec Ideal (⟨2, ![K, N]⟩ : Shape) φ₂)
    (i : (⟨2, ![M, N]⟩ : Shape).Idx) :
    FloatOps.matmul d prec a b (constant (F := Ideal) (⟨2, ![M, N]⟩ : Shape) .f32 0x00000000#32) i
      = ∑ k : Fin K, a (ix2 (i 0) k) * b (ix2 k (i 1)) := by
  rw [Ideal.matmul_constant_zero_apply, ← Equiv.sum_comp (contrEquiv1 d K hrk hs).symm]
  refine Finset.sum_congr rfl fun k _ => ?_
  obtain ⟨el, er⟩ := operand_indices d hcl hcr hrk hs hl0 hr1 i k
  rw [el, er]
  rfl

/-- The same with the factors named: whatever the left operand's row and the right operand's column are known to be. -/
theorem matmul_zero_rows
    (d : DotDims (⟨2, ![M, K]⟩ : Shape) (⟨2, ![K, N]⟩ : Shape) (⟨2, ![M, N]⟩ : Shape)) (prec : Option ContractPrecision)
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (a : FVec Ideal (⟨2, ![M, K]⟩ : Shape) φ₁) (b : FVec Ideal (⟨2, ![K, N]⟩ : Shape) φ₂)
    (i : (⟨2, ![M, N]⟩ : Shape).Idx) (L R : Fin K → EReal)
    (hl : ∀ k, a (ix2 (i 0) k) = L k) (hr : ∀ k, b (ix2 k (i 1)) = R k) :
    FloatOps.matmul d prec a b (constant (F := Ideal) (⟨2, ![M, N]⟩ : Shape) .f32 0x00000000#32) i
      = ∑ k : Fin K, L k * R k :=
  (matmul_zero_apply d prec hcl hcr hrk hs hl0 hr1 a b i).trans
    (Finset.sum_congr rfl fun k _ => by rw [hl k, hr k])

/-- The host's dot_general, entry by entry: the same sum. -/
theorem dotGeneral_apply
    (d : DotDims (⟨2, ![M, K]⟩ : Shape) (⟨2, ![K, N]⟩ : Shape) (⟨2, ![M, N]⟩ : Shape)) (prec : Option ContractPrecision)
    (sched : HostSchedule)
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (a : FVec Ideal (⟨2, ![M, K]⟩ : Shape) φ₁) (b : FVec Ideal (⟨2, ![K, N]⟩ : Shape) φ₂)
    (i : (⟨2, ![M, N]⟩ : Shape).Idx) :
    FloatOps.dotGeneral d prec sched a b i = ∑ k : Fin K, a (ix2 (i 0) k) * b (ix2 k (i 1)) := by
  rw [Ideal.dotGeneral_apply, ← Equiv.sum_comp (contrEquiv1 d K hrk hs).symm]
  refine Finset.sum_congr rfl fun k _ => ?_
  obtain ⟨el, er⟩ := operand_indices d hcl hcr hrk hs hl0 hr1 i k
  rw [el, er]
  rfl

end Idealize.ShloMosaic.MatmulRows

end
-- ==== Proof.LibHostBroadcast.lean ====
/-
  The host's broadcast_in_dim in the few forms a dense layer uses, read at an index.

  A scalar spread over any shape; a length-b vector made a 1 by b row and the row repeated down a rows (a bias); a
  length-a vector made an a by 1 column and the column repeated across b columns (a per-row quantity kept as a column).
-/
import Idealize.ShloMosaic.Lib.Pipeline.Value
import Idealize.ShloMosaic.Lib.ValueIdx

namespace Idealize.ShloMosaic.HostBroadcast

open Idealize.ShloMosaic Idealize.ShloMosaic.ValueIdx Idealize.ShloMosaic.Pipeline

variable {α : Type}

/-- A scalar broadcast to any shape reads the scalar everywhere. -/
theorem scalar_apply {t : Shape} (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 (fun a => a.elim0)

/-- A length-b vector as a 1 by b row. -/
theorem vec_row_apply {b : ℕ} (h : (⟨1, ![b]⟩ : Shape).BroadcastsInDim ⟨2, ![1, b]⟩ ![1])
    (x : (⟨1, ![b]⟩ : Shape).Idx → α) (j : (⟨2, ![1, b]⟩ : Shape).Idx) :
    broadcastInDim ⟨2, ![1, b]⟩ ![1] h x j = x (ix1 (j 1)) :=
  broadcastInDim_apply _ h x j (ix1 (j 1)) (fun a => match a with
    | ⟨0, _⟩ => by
      show (j 1).val = if b = 1 then 0 else (j 1).val
      split
      · have := (j 1).isLt; simp at this; omega
      · rfl)

/-- A 1 by b row repeated down a rows. -/
theorem row_rows_apply {a b : ℕ} (h : (⟨2, ![1, b]⟩ : Shape).BroadcastsInDim ⟨2, ![a, b]⟩ ![0, 1])
    (x : (⟨2, ![1, b]⟩ : Shape).Idx → α) (j : (⟨2, ![a, b]⟩ : Shape).Idx) :
    broadcastInDim ⟨2, ![a, b]⟩ ![0, 1] h x j = x (ix2 (0 : Fin 1) (j 1)) :=
  broadcastInDim_apply _ h x j (ix2 (0 : Fin 1) (j 1)) (fun ax => match ax with
    | ⟨0, _⟩ => by
      show 0 = if (1 : ℕ) = 1 then 0 else (j 0).val
      rw [if_pos rfl]
    | ⟨1, _⟩ => by
      show (j 1).val = if b = 1 then 0 else (j 1).val
      split
      · have := (j 1).isLt; simp at this; omega
      · rfl)

/-- A bias: the vector at the column, whatever the row. -/
theorem bias_apply {a b : ℕ} (h1 : (⟨1, ![b]⟩ : Shape).BroadcastsInDim ⟨2, ![1, b]⟩ ![1])
    (h2 : (⟨2, ![1, b]⟩ : Shape).BroadcastsInDim ⟨2, ![a, b]⟩ ![0, 1])
    (x : (⟨1, ![b]⟩ : Shape).Idx → α) (j : (⟨2, ![a, b]⟩ : Shape).Idx) :
    broadcastInDim ⟨2, ![a, b]⟩ ![0, 1] h2 (broadcastInDim ⟨2, ![1, b]⟩ ![1] h1 x) j = x (ix1 (j 1)) :=
  (row_rows_apply h2 _ j).trans (vec_row_apply h1 x _)

/-- A length-a vector as an a by 1 column. -/
theorem vec_col_apply {a : ℕ} (h : (⟨1, ![a]⟩ : Shape).BroadcastsInDim ⟨2, ![a, 1]⟩ ![0])
    (x : (⟨1, ![a]⟩ : Shape).Idx → α) (j : (⟨2, ![a, 1]⟩ : Shape).Idx) :
    broadcastInDim ⟨2, ![a, 1]⟩ ![0] h x j = x (ix1 (j 0)) :=
  broadcastInDim_apply _ h x j (ix1 (j 0)) (fun ax => match ax with
    | ⟨0, _⟩ => by
      show (j 0).val = if a = 1 then 0 else (j 0).val
      split
      · have := (j 0).isLt; simp at this; omega
      · rfl)

/-- An a by 1 column repeated across b columns. -/
theorem col_cols_apply {a b : ℕ} (h : (⟨2, ![a, 1]⟩ : Shape).BroadcastsInDim ⟨2, ![a, b]⟩ ![0, 1])
    (x : (⟨2, ![a, 1]⟩ : Shape).Idx → α) (j : (⟨2, ![a, b]⟩ : Shape).Idx) :
    broadcastInDim ⟨2, ![a, b]⟩ ![0, 1] h x j = x (ix2 (j 0) (0 : Fin 1)) :=
  broadcastInDim_apply _ h x j (ix2 (j 0) (0 : Fin 1)) (fun ax => match ax with
    | ⟨0, _⟩ => by
      show (j 0).val = if a = 1 then 0 else (j 0).val
      split
      · have := (j 0).isLt; simp at this; omega
      · rfl
    | ⟨1, _⟩ => by
      show 0 = if (1 : ℕ) = 1 then 0 else (j 1).val
      rw [if_pos rfl])

/-- A per-row quantity kept as a column and spread over the row. -/
theorem column_apply {a b : ℕ} (h1 : (⟨1, ![a]⟩ : Shape).BroadcastsInDim ⟨2, ![a, 1]⟩ ![0])
    (h2 : (⟨2, ![a, 1]⟩ : Shape).BroadcastsInDim ⟨2, ![a, b]⟩ ![0, 1])
    (x : (⟨1, ![a]⟩ : Shape).Idx → α) (j : (⟨2, ![a, b]⟩ : Shape).Idx) :
    broadcastInDim ⟨2, ![a, b]⟩ ![0, 1] h2 (broadcastInDim ⟨2, ![a, 1]⟩ ![0] h1 x) j = x (ix1 (j 0)) :=
  (col_cols_apply h2 _ j).trans (vec_col_apply h1 x _)

end Idealize.ShloMosaic.HostBroadcast
-- ==== Proof.LibConcatCols.lean ====
/-
  Two matrices with the same number of rows laid side by side along the columns, read at an index.

  The concatenation of an R x A array and an R x B array along axis 1 is an R x C array with C = A + B. Entry (r, k)
  is the first array's entry (r, k) when k < A and the second's entry (r, k - A) otherwise. This is what
  jnp.concatenate([x, y], axis=-1) holds, for any element type, on a block of rows as on the whole arrays; two such
  rows agree entry by entry when their halves do.
-/
import Idealize.ShloMosaic.Lib.Pipeline.Value
import Idealize.ShloMosaic.Lib.ValueIdx

namespace Idealize.ShloMosaic.ConcatCols

open Idealize.ShloMosaic Idealize.ShloMosaic.ValueIdx

variable {α : Type} {R R' A B C : Nat}

/-- Entry k of row r of an R x A array and an R x B array laid side by side. -/
def catRow (hC : C = A + B) (x : (⟨2, ![R, A]⟩ : Shape).Idx → α) (y : (⟨2, ![R, B]⟩ : Shape).Idx → α)
    (r : Fin R) (k : Fin C) : α :=
  if h : k.val < A then x (ix2 r ⟨k.val, h⟩) else y (ix2 r ⟨k.val - A, by have := k.isLt; omega⟩)

/-- The concatenation along axis 1, read at (r, k). -/
theorem concat_cols_apply (hC : C = A + B) (x : (⟨2, ![R, A]⟩ : Shape).Idx → α) (y : (⟨2, ![R, B]⟩ : Shape).Idx → α)
    (h : Shape.Concatenates [(⟨2, ![R, A]⟩ : Shape), (⟨2, ![R, B]⟩ : Shape)] (⟨2, ![R, C]⟩ : Shape) 1)
    (r : Fin R) (k : Fin C) :
    concatenate (⟨2, ![R, C]⟩ : Shape) 1 [⟨(⟨2, ![R, A]⟩ : Shape), x⟩, ⟨(⟨2, ![R, B]⟩ : Shape), y⟩] h (ix2 r k)
      = catRow hC x y r k := by
  unfold catRow
  split
  · rename_i hk
    exact concatenate_pair_apply_left (1 : Fin 2) x y h (ix2 r k) rfl (ix2 r ⟨k.val, hk⟩)
      (fun b => match b with | ⟨0, _⟩ => rfl | ⟨1, _⟩ => rfl)
  · rename_i hk
    exact concatenate_pair_apply_right (1 : Fin 2) x y h (ix2 r k) rfl rfl (ix2 r ⟨k.val - A, by have := k.isLt; omega⟩)
      (fun b hb => match b, hb with
        | ⟨0, _⟩, _ => rfl
        | ⟨1, _⟩, hb => absurd rfl hb)
      (by show (k.val - A) + A = k.val; omega)

/-- Two side-by-side rows agree at every entry when their left halves agree and their right halves agree. -/
theorem catRow_congr (hC : C = A + B)
    {x : (⟨2, ![R, A]⟩ : Shape).Idx → α} {y : (⟨2, ![R, B]⟩ : Shape).Idx → α}
    {x' : (⟨2, ![R', A]⟩ : Shape).Idx → α} {y' : (⟨2, ![R', B]⟩ : Shape).Idx → α} {r : Fin R} {r' : Fin R'}
    (hx : ∀ k : Fin A, x (ix2 r k) = x' (ix2 r' k)) (hy : ∀ k : Fin B, y (ix2 r k) = y' (ix2 r' k)) (k : Fin C) :
    catRow hC x y r k = catRow hC x' y' r' k := by
  unfold catRow
  split
  · exact hx _
  · exact hy _

end Idealize.ShloMosaic.ConcatCols
-- ==== Proof.LayerSpec.lean ====
/-
  The two array functions one message-passing layer is made of, beside the gather and the scatter-add, and each read
  at an index on the extended reals.

  The per-edge message: row r of the gathered source features and row r of the edge features are laid side by side
  (256 entries), multiplied into the 256 x 128 weight, and the bias row is added:
      msg(r, q) = (sum over k < 256 of cat(r, k) * W(k, q)) + b(0, q),
  with cat(r, k) the gathered feature (r, k) for k < 128 and the edge feature (r, k - 128) otherwise.
  The node update: the summed messages of node r divided by the node's clipped in-degree, kept as a one-entry column,
  plus the node's own features, through tanh:
      upd(r, q) = tanh (s(r, q) / c(r, 0) + h(r, q)).
  Both are spelt with the host's whole-array operations; the readings use no finiteness.
-/
import proofs.«178299_j57836029608131_1_alg».proof.Proof.Gen.ReferenceIdeal
import proofs.«178299_j57836029608131_1_alg».proof.Proof.LibMatmulRows
import proofs.«178299_j57836029608131_1_alg».proof.Proof.LibHostBroadcast
import proofs.«178299_j57836029608131_1_alg».proof.Proof.LibConcatCols
import Idealize.ShloMosaic.Lib.Pipeline.Value
import Idealize.ShloMosaic.Lib.ValueIdx
import Idealize.ShloMosaic.PureOps.Ideal.Laws

noncomputable section

namespace Cert.Layer

open Idealize.ShloMosaic Idealize.ShloMosaic.ValueIdx
open Cert.ReferenceIdeal Cert.ReferenceIdeal.Facts₀

/-- Entry k of row r of two R x 128 arrays laid side by side along the columns (256 entries). -/
abbrev catRow {α : Type} {R : Nat} (g ef : (⟨2, ![R, 128]⟩ : Shape).Idx → α) (r : Fin R) (k : Fin 256) : α :=
  ConcatCols.catRow (A := 128) (B := 128) (C := 256) rfl g ef r k

/-- The per-edge message of one layer, as the host spells it. -/
def edgeMsg (g ef : FVec Ideal S640000x128 .f32) (W : FVec Ideal S256x128 .f32) (b2 : FVec Ideal S1x128 .f32) :
    FVec Ideal S640000x128 .f32 :=
  addf (Host.dotGeneral dot_S640000x256_S256x128_S640000x128_1_0_0_1_n_n none
      (concatenate S640000x256 1 [⟨S640000x128, g⟩, ⟨S640000x128, ef⟩] concatenates_S640000x128_S640000x128_S640000x256_d1) W)
    (broadcastInDim S640000x128 ![0, 1] bcast_S1x128_S640000x128_0_1 b2)

theorem dot_lhs0 (i : S640000x128.Idx) (q : dot_S640000x256_S256x128_S640000x128_1_0_0_1_n_n.contr.Idx) :
    (dot_S640000x256_S256x128_S640000x128_1_0_0_1_n_n.lhsIdx i q 0).val = (i 0).val := by
  unfold DotDims.lhsIdx
  rw [dif_neg (show ¬(0 : Fin S640000x256.rank) ∈ dot_S640000x256_S256x128_S640000x128_1_0_0_1_n_n.lhsBatch by decide),
    dif_pos (show (0 : Fin S640000x256.rank) ∈ dot_S640000x256_S256x128_S640000x128_1_0_0_1_n_n.lhsNonContracting by decide)]
  rfl

theorem dot_rhs1 (i : S640000x128.Idx) (q : dot_S640000x256_S256x128_S640000x128_1_0_0_1_n_n.contr.Idx) :
    (dot_S640000x256_S256x128_S640000x128_1_0_0_1_n_n.rhsIdx i q 1).val = (i 1).val := by
  unfold DotDims.rhsIdx
  rw [dif_neg (show ¬(1 : Fin S256x128.rank) ∈ dot_S640000x256_S256x128_S640000x128_1_0_0_1_n_n.rhsBatch by decide),
    dif_pos (show (1 : Fin S256x128.rank) ∈ dot_S640000x256_S256x128_S640000x128_1_0_0_1_n_n.rhsNonContracting by decide)]
  rfl

/-- The message at edge r, feature q. -/
theorem edgeMsg_apply (g ef : FVec Ideal S640000x128 .f32) (W : FVec Ideal S256x128 .f32) (b2 : FVec Ideal S1x128 .f32)
    (r : Fin 640000) (q : Fin 128) :
    edgeMsg g ef W b2 (ix2 r q) = (∑ k : Fin 256, catRow g ef r k * W (ix2 k q)) + b2 (ix2 (0 : Fin 1) q) := by
  unfold edgeMsg
  rw [addf_apply]
  refine congrArg₂ (· + ·) ?_ ?_
  · simp only [Host.dotGeneral]
    refine (MatmulRows.dotGeneral_apply (M := 640000) (K := 256) (N := 128)
      dot_S640000x256_S256x128_S640000x128_1_0_0_1_n_n none _ rfl rfl rfl rfl dot_lhs0 dot_rhs1 _ W (ix2 r q)).trans ?_
    exact Finset.sum_congr rfl fun k _ => congrArg (· * W (ix2 k q))
      (ConcatCols.concat_cols_apply (A := 128) (B := 128) (C := 256) rfl g ef concatenates_S640000x128_S640000x128_S640000x256_d1 r k)
  · exact HostBroadcast.row_rows_apply (a := 640000) (b := 128) bcast_S1x128_S640000x128_0_1 b2 (ix2 r q)

/-- The node update of one layer, as the host spells it. -/
def nodeUpd (s : FVec Ideal S50000x128 .f32) (c6 : FVec Ideal S50000x1 .f32) (h : FVec Ideal S50000x128 .f32) :
    FVec Ideal S50000x128 .f32 :=
  Host.tanh (addf (Host.divf s (broadcastInDim S50000x128 ![0, 1] bcast_S50000x1_S50000x128_0_1 c6)) h)

/-- The updated feature q of node r. -/
theorem nodeUpd_apply (s : FVec Ideal S50000x128 .f32) (c6 : FVec Ideal S50000x1 .f32) (h : FVec Ideal S50000x128 .f32)
    (r : Fin 50000) (q : Fin 128) :
    nodeUpd s c6 h (ix2 r q)
      = Ideal.tanh (Ideal.div (s (ix2 r q)) (c6 (ix2 r (0 : Fin 1))) + h (ix2 r q)) := by
  show Ideal.tanh (Ideal.div (s (ix2 r q)) (broadcastInDim S50000x128 ![0, 1] bcast_S50000x1_S50000x128_0_1 c6 (ix2 r q)) + h (ix2 r q)) = _
  rw [HostBroadcast.col_cols_apply (a := 50000) (b := 128) bcast_S50000x1_S50000x128_0_1 c6 (ix2 r q)]

end Cert.Layer

end
-- ==== Proof.Stages.lean ====
/-
  The kernel's layer as one function of arrays.

  Around its two pipelined kernels the program computes, with host operations: the rows of the node features at the
  source indices (a negative index first wrapped by the number of nodes), the bias as a one-row matrix, the
  scatter-add of the per-edge messages into a zero array at the destination indices, and once for both layers the
  in-degree of every node (a scatter-add of ones) clipped below at one and kept as a one-entry column. A layer is the
  node update of the summed messages, the degree column and the node features.
-/
import proofs.«178299_j57836029608131_1_alg».proof.Proof.Gen.KernelIdeal
import proofs.«178299_j57836029608131_1_alg».proof.Proof.LayerSpec

noncomputable section

namespace Cert.KernelIdeal.Stages

open Idealize.ShloMosaic
open Cert.KernelIdeal Cert.KernelIdeal.Facts₀ Cert.Layer

/-- Node features, edge features, a weight, a bias, an index vector. -/
abbrev Nodes := (⟨S50000x128, .f32⟩ : BufTy).Contents (Elt Ideal)
abbrev Edges := (⟨S640000x128, .f32⟩ : BufTy).Contents (Elt Ideal)
abbrev Weight := (⟨S256x128, .f32⟩ : BufTy).Contents (Elt Ideal)
abbrev Bias := (⟨S128, .f32⟩ : BufTy).Contents (Elt Ideal)
abbrev Indices := (⟨S640000, .i32⟩ : BufTy).Contents (Elt Ideal)

/-- The node features at each edge's source index; a negative index counts from the end. -/
def gatherRows (h : Nodes) (src : Indices) : Edges :=
  Host.gather gather_S50000x128_S640000x1_S640000x128_1_0_n_n_0_1_1128 h
    (broadcastInDim S640000x1 ![0] bcast_S640000_S640000x1_0
      (select (cmpi .slt src (broadcastInDim S640000 ![] bcast_S_S640000 (constantI S_ 32 0#32)))
        (addi src (broadcastInDim S640000 ![] bcast_S_S640000 (constantI S_ 32 50000#32))) src))

/-- The bias as a one-row matrix. -/
def biasRow (b : Bias) : (⟨S1x128, .f32⟩ : BufTy).Contents (Elt Ideal) :=
  shapeCast S1x128 b shapeCasts_S128_S1x128

/-- The per-edge messages added up at their destination nodes, from zero. -/
def segmentSum (dst : Indices) (msg : Edges) : Nodes :=
  Host.scatterAdd (F := Ideal) scatter_S50000x128_S640000x1_S640000x128_1_0_0_1
    (broadcastInDim S50000x128 ![] bcast_S_S50000x128 (constant (F := Ideal) S_ .f32 0x00000000#32))
    (broadcastInDim S640000x1 ![0] bcast_S640000_S640000x1_0 dst) msg

/-- Every node's in-degree, at least one, as a one-entry column. -/
def degreeCol (dst : Indices) : (⟨S50000x1, .f32⟩ : BufTy).Contents (Elt Ideal) :=
  broadcastInDim S50000x1 ![0] bcast_S50000_S50000x1_0
    (maximumf (F := Ideal)
      (Host.scatterAdd (F := Ideal) scatter_S50000_S640000x1_S640000_n_0_0_1
        (broadcastInDim S50000 ![] bcast_S_S50000 (constant (F := Ideal) S_ .f32 0x00000000#32))
        (broadcastInDim S640000x1 ![0] bcast_S640000_S640000x1_0 dst)
        (broadcastInDim S640000 ![] bcast_S_S640000 (constant (F := Ideal) S_ .f32 0x3F800000#32)))
      (broadcastInDim S50000 ![] bcast_S_S50000 (constant (F := Ideal) S_ .f32 0x3F800000#32)))

/-- The messages of one layer. -/
def messages (h : Nodes) (ef : Edges) (W : Weight) (b : Bias) (src : Indices) : Edges :=
  edgeMsg (gatherRows h src) ef W (biasRow b)

/-- One layer. -/
def layer (h : Nodes) (ef : Edges) (W : Weight) (b : Bias) (src dst : Indices) : Nodes :=
  nodeUpd (segmentSum dst (messages h ef W b src)) (degreeCol dst) h

end Cert.KernelIdeal.Stages

end
-- ==== Proof.Payload.lean ====
/-
  What the two kernel bodies store, read at an index of the block, on the extended reals.

  The edge kernel's block: the two 8000 x 128 input blocks are laid side by side, the change of float format is the
  identity, the product with the 256 x 128 weight into a zero accumulator is the plain sum over the 256 joined
  columns, and the one-row bias is repeated down the rows:
      out(p, q) = (sum over k < 256 of cat(p, k) * W(k, q)) + b(0, q).
  The node kernel's block: the 5000 x 1 column of clipped counts is repeated across the 128 columns, so
      out(p, q) = tanh (s(p, q) / c(p, 0) + h(p, q)).
  The second layer's bodies are the same functions (the node body with one more identity cast).
-/
import proofs.«178299_j57836029608131_1_alg».proof.Proof.Gen.KernelIdeal.Skeleton
import proofs.«178299_j57836029608131_1_alg».proof.Proof.LayerSpec

noncomputable section

namespace Cert.KernelIdeal.Payload

open Idealize.ShloMosaic Idealize.ShloMosaic.ValueIdx
open Cert.KernelIdeal Cert.KernelIdeal.Facts₀ Cert.Layer

theorem dot_lhs0 (i : S8000x128.Idx) (q : dot_S8000x256_S256x128_S8000x128_1_0_0_1_n_n.contr.Idx) :
    (dot_S8000x256_S256x128_S8000x128_1_0_0_1_n_n.lhsIdx i q 0).val = (i 0).val := by
  unfold DotDims.lhsIdx
  rw [dif_neg (show ¬(0 : Fin S8000x256.rank) ∈ dot_S8000x256_S256x128_S8000x128_1_0_0_1_n_n.lhsBatch by decide),
    dif_pos (show (0 : Fin S8000x256.rank) ∈ dot_S8000x256_S256x128_S8000x128_1_0_0_1_n_n.lhsNonContracting by decide)]
  rfl

theorem dot_rhs1 (i : S8000x128.Idx) (q : dot_S8000x256_S256x128_S8000x128_1_0_0_1_n_n.contr.Idx) :
    (dot_S8000x256_S256x128_S8000x128_1_0_0_1_n_n.rhsIdx i q 1).val = (i 1).val := by
  unfold DotDims.rhsIdx
  rw [dif_neg (show ¬(1 : Fin S256x128.rank) ∈ dot_S8000x256_S256x128_S8000x128_1_0_0_1_n_n.rhsBatch by decide),
    dif_pos (show (1 : Fin S256x128.rank) ∈ dot_S8000x256_S256x128_S8000x128_1_0_0_1_n_n.rhsNonContracting by decide)]
  rfl

/-- The one-row bias repeated down 8000 rows reads the row at the column. -/
theorem bias_rows_apply (x3 : Vec Ideal S1x128 .f32) (p : Fin 8000) (q : Fin 128) :
    broadcastTo S8000x128 x3 broadcasts_S1x128_S8000x128 (ix2 p q) = x3 (ix2 (0 : Fin 1) q) :=
  broadcastTo_apply x3 broadcasts_S1x128_S8000x128 (ix2 p q) (ix2 (0 : Fin 1) q) (fun a => match a with
    | ⟨0, _⟩ => by
      show (0 : ℕ) = if (1 : ℕ) = 1 then 0 else _
      rw [if_pos rfl]
    | ⟨1, _⟩ => by
      show q.val = if (128 : ℕ) = 1 then 0 else _
      rw [if_neg (by decide)]
      rfl)

/-- The one-entry column repeated across 128 columns reads the column at the row. -/
theorem count_cols_apply (x1 : Vec Ideal S5000x1 .f32) (p : Fin 5000) (q : Fin 128) :
    broadcastTo S5000x128 x1 broadcasts_S5000x1_S5000x128 (ix2 p q) = x1 (ix2 p (0 : Fin 1)) :=
  broadcastTo_apply x1 broadcasts_S5000x1_S5000x128 (ix2 p q) (ix2 p (0 : Fin 1)) (fun a => match a with
    | ⟨0, _⟩ => by
      show p.val = if (5000 : ℕ) = 1 then 0 else _
      rw [if_neg (by decide)]
      rfl
    | ⟨1, _⟩ => by
      show (0 : ℕ) = if (1 : ℕ) = 1 then 0 else _
      rw [if_pos rfl])

/-- The first edge kernel's stored block at (p, q). -/
theorem edge_payload_apply (x0 x1 : Vec Ideal S8000x128 .f32) (x2 : Vec Ideal S256x128 .f32) (x3 : Vec Ideal S1x128 .f32)
    (p : Fin 8000) (q : Fin 128) :
    Gen.k0_pay1 x0 x1 x2 x3 (ix2 p q) = (∑ k : Fin 256, catRow x0 x1 p k * x2 (ix2 k q)) + x3 (ix2 (0 : Fin 1) q) := by
  unfold Gen.k0_pay1
  rw [shapeCast_self, shapeCast_self, addf_apply]
  refine congrArg₂ (· + ·) ?_ (bias_rows_apply x3 p q)
  exact MatmulRows.matmul_zero_rows (M := 8000) (K := 256) (N := 128) dot_S8000x256_S256x128_S8000x128_1_0_0_1_n_n none
    rfl rfl rfl rfl dot_lhs0 dot_rhs1 _ _ (ix2 p q) _ _
    (fun k => ConcatCols.concat_cols_apply (A := 128) (B := 128) (C := 256) rfl x0 x1 concatenates_S8000x128_S8000x128_S8000x256_d1 p k)
    (fun k => rfl)

/-- The second edge kernel's body is the first's. -/
theorem edge_payload2_eq (x0 x1 : Vec Ideal S8000x128 .f32) (x2 : Vec Ideal S256x128 .f32) (x3 : Vec Ideal S1x128 .f32) :
    Gen.k2_pay1 x0 x1 x2 x3 = Gen.k0_pay1 x0 x1 x2 x3 := rfl

/-- The first node kernel's stored block at (p, q). -/
theorem node_payload_apply (x0 : Vec Ideal S5000x128 .f32) (x1 : Vec Ideal S5000x1 .f32) (x2 : Vec Ideal S5000x128 .f32)
    (p : Fin 5000) (q : Fin 128) :
    Gen.k1_pay1 x0 x1 x2 (ix2 p q)
      = Ideal.tanh (Ideal.div (x0 (ix2 p q)) (x1 (ix2 p (0 : Fin 1))) + x2 (ix2 p q)) := by
  unfold Gen.k1_pay1
  rw [shapeCast_self, shapeCast_self]
  show Ideal.tanh (Ideal.div (x0 (ix2 p q)) (broadcastTo S5000x128 x1 broadcasts_S5000x1_S5000x128 (ix2 p q)) + x2 (ix2 p q)) = _
  rw [count_cols_apply]

/-- The second node kernel's stored block at (p, q): one more identity cast, the same value. -/
theorem node_payload2_apply (x0 : Vec Ideal S5000x128 .f32) (x1 : Vec Ideal S5000x1 .f32) (x2 : Vec Ideal S5000x128 .f32)
    (p : Fin 5000) (q : Fin 128) :
    Gen.k3_pay1 x0 x1 x2 (ix2 p q)
      = Ideal.tanh (Ideal.div (x0 (ix2 p q)) (x1 (ix2 p (0 : Fin 1))) + x2 (ix2 p q)) := by
  unfold Gen.k3_pay1
  rw [shapeCast_self, shapeCast_self, shapeCast_self]
  show Ideal.tanh (Ideal.div (x0 (ix2 p q)) (broadcastTo S5000x128 x1 broadcasts_S5000x1_S5000x128 (ix2 p q)) + x2 (ix2 p q)) = _
  rw [count_cols_apply]

/-- A block of the message array. If row p of the two input blocks is row r of the two arrays, and the weight and bias
    blocks are the weight and the bias, then entry (p, q) of what the edge body stores is entry (r, q) of the layer's
    per-edge message. -/
theorem block_msg (G0 G1 : FVec Ideal S640000x128 .f32) (W : FVec Ideal S256x128 .f32) (B : FVec Ideal S1x128 .f32)
    (x0 x1 : Vec Ideal S8000x128 .f32) (x2 : Vec Ideal S256x128 .f32) (x3 : Vec Ideal S1x128 .f32)
    (p : Fin 8000) (q : Fin 128) (r : Fin 640000)
    (h0 : ∀ k : Fin 128, x0 (ix2 p k) = G0 (ix2 r k)) (h1 : ∀ k : Fin 128, x1 (ix2 p k) = G1 (ix2 r k))
    (h2 : ∀ k : Fin 256, x2 (ix2 k q) = W (ix2 k q)) (h3 : x3 (ix2 (0 : Fin 1) q) = B (ix2 (0 : Fin 1) q)) :
    Gen.k0_pay1 x0 x1 x2 x3 (ix2 p q) = edgeMsg G0 G1 W B (ix2 r q) := by
  rw [edge_payload_apply, edgeMsg_apply, h3]
  refine congrArg (· + B (ix2 (0 : Fin 1) q)) (Finset.sum_congr rfl fun k _ => ?_)
  rw [h2 k]
  exact congrArg (· * W (ix2 k q)) (ConcatCols.catRow_congr rfl h0 h1 k)

/-- A block of the updated node features: entry (p, q) of what the node body stores is entry (r, q) of the layer's node
    update, when the three input blocks hold the arrays' entries of row r. -/
theorem block_upd (S H : FVec Ideal S50000x128 .f32) (C : FVec Ideal S50000x1 .f32)
    (x0 : Vec Ideal S5000x128 .f32) (x1 : Vec Ideal S5000x1 .f32) (x2 : Vec Ideal S5000x128 .f32)
    (p : Fin 5000) (q : Fin 128) (r : Fin 50000)
    (h0 : x0 (ix2 p q) = S (ix2 r q)) (h1 : x1 (ix2 p (0 : Fin 1)) = C (ix2 r (0 : Fin 1)))
    (h2 : x2 (ix2 p q) = H (ix2 r q)) :
    Gen.k1_pay1 x0 x1 x2 (ix2 p q) = nodeUpd S C H (ix2 r q) := by
  rw [node_payload_apply, nodeUpd_apply, h0, h1, h2]

/-- The same for the second layer's node body. -/
theorem block_upd2 (S H : FVec Ideal S50000x128 .f32) (C : FVec Ideal S50000x1 .f32)
    (x0 : Vec Ideal S5000x128 .f32) (x1 : Vec Ideal S5000x1 .f32) (x2 : Vec Ideal S5000x128 .f32)
    (p : Fin 5000) (q : Fin 128) (r : Fin 50000)
    (h0 : x0 (ix2 p q) = S (ix2 r q)) (h1 : x1 (ix2 p (0 : Fin 1)) = C (ix2 r (0 : Fin 1)))
    (h2 : x2 (ix2 p q) = H (ix2 r q)) :
    Gen.k3_pay1 x0 x1 x2 (ix2 p q) = nodeUpd S C H (ix2 r q) := by
  rw [node_payload2_apply, nodeUpd_apply, h0, h1, h2]

end Cert.KernelIdeal.Payload

end
-- ==== Proof.EdgeRegion0.lean ====
/-
  The first layer's per-edge messages as one array.

  The edge kernel runs over 80 grid points. Point t reads rows 8000 t .. 8000 t + 7999 of the gathered source features
  and of the edge features, the whole weight and the whole bias row, and writes back rows 8000 t .. 8000 t + 7999 of
  the message array. What it writes back is those rows of the layer's per-edge message function of the four arrays
  as the region finds them, and the 80 blocks cover the 640000 rows: after the region the message array is that
  function of the region-entry contents, whatever they are.
-/
import proofs.«178299_j57836029608131_1_alg».proof.Proof.Gen.KernelIdeal.Frame
import proofs.«178299_j57836029608131_1_alg».proof.Proof.Payload

set_option maxRecDepth 16384

noncomputable section

namespace Cert.KernelIdeal.EdgeRegion0

open Idealize.ShloMosaic Idealize.ShloMosaic.TcCoe Idealize.ShloMosaic.ValueIdx
open Idealize.SL.Sem
open Idealize.ShloMosaic.Pipeline (Dat)
open Cert.KernelIdeal Cert.KernelIdeal.Gen Cert.Layer

variable (V : (c : Dev nD) → (b : Ref sig .tc) → Buf (Elt Ideal) ((c : Thread nD τ).loc b))

theorem origin : (![0, 0] : Fin 2 → Nat) = fun _ => 0 := funext fun a => by fin_cases a <;> rfl

/-- The block index maps over the grid: the two feature windows and the output move with the point along the rows;
    the weight and the bias stay put. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- What point t writes back is block t of the message function of the arrays as the region finds them. -/
theorem written_back (c : Dev nD) (t : Fin cfg0.N) :
    (dat0 V c).flushed 4 t = ((cfg0.win 4).blk t).view.read (Elt Ideal)
      (edgeMsg (V c main_v13) (V c main_arg1) (V c main_arg2) (V c main_v14)) := by
  show (cfg0.win 4).cut (grid0.coords t) ((dat0 V c).after 4 t) = _
  rw [after0_4]
  unfold out0_4
  rw [View.canon_unit_zero origin]
  simp only [View.ld_unit_zero (S := S8000x128) origin, View.ld_unit_zero (S := S256x128) origin,
    View.ld_unit_zero (S := S1x128) origin]
  obtain ⟨e00, e01, e10, e11, e20, e21, e30, e31, e40, e41⟩ := block_indices t
  have ht : t.val < 80 := lt_of_lt_of_eq t.isLt (show cfg0.N = 80 from N_0)
  funext j
  obtain ⟨p, q, rfl⟩ : ∃ (p : Fin 8000) (q : Fin 128), j = ix2 p q :=
    ⟨⟨(j 0).val, (j 0).isLt⟩, ⟨(j 1).val, (j 1).isLt⟩, funext fun a => match a with | ⟨0, _⟩ => rfl | ⟨1, _⟩ => rfl⟩
  have hp : p.val < 8000 := p.isLt
  show Gen.k0_pay1 (iblk0 V c 0 t) (iblk0 V c 1 t) (iblk0 V c 2 t) (iblk0 V c 3 t) (ix2 p q)
    = edgeMsg (V c main_v13) (V c main_arg1) (V c main_arg2) (V c main_v14) (((cfg0.win 4).blk t).view.emb (ix2 p q))
  have hrow : ((cfg0.win 4).blk t).view.emb (ix2 p q) = ix2 (⟨t.val * 8000 + p.val, by omega⟩ : Fin 640000) q := by
    funext a; apply Fin.ext
    match a with
    | ⟨0, _⟩ => show win0_4.index t (0 : Fin 2) * 8000 + 1 * p.val = t.val * 8000 + p.val; omega
    | ⟨1, _⟩ => show win0_4.index t (1 : Fin 2) * 128 + 1 * q.val = q.val; omega
  rw [hrow]
  refine Payload.block_msg _ _ _ _ _ _ _ _ p q _ (fun k => ?_) (fun k => ?_) (fun k => ?_) ?_
  · show V c main_v13 (((cfg0.win 0).blk t).view.emb (ix2 p k)) = V c main_v13 (ix2 (⟨t.val * 8000 + p.val, by omega⟩ : Fin 640000) k)
    refine congrArg _ (funext fun a => Fin.ext ?_)
    match a with
    | ⟨0, _⟩ => show win0_0.index t (0 : Fin 2) * 8000 + 1 * p.val = t.val * 8000 + p.val; omega
    | ⟨1, _⟩ => show win0_0.index t (1 : Fin 2) * 128 + 1 * k.val = k.val; omega
  · show V c main_arg1 (((cfg0.win 1).blk t).view.emb (ix2 p k)) = V c main_arg1 (ix2 (⟨t.val * 8000 + p.val, by omega⟩ : Fin 640000) k)
    refine congrArg _ (funext fun a => Fin.ext ?_)
    match a with
    | ⟨0, _⟩ => show win0_1.index t (0 : Fin 2) * 8000 + 1 * p.val = t.val * 8000 + p.val; omega
    | ⟨1, _⟩ => show win0_1.index t (1 : Fin 2) * 128 + 1 * k.val = k.val; omega
  · show V c main_arg2 (((cfg0.win 2).blk t).view.emb (ix2 k q)) = V c main_arg2 (ix2 k q)
    refine congrArg _ (funext fun a => Fin.ext ?_)
    match a with
    | ⟨0, _⟩ => show win0_2.index t (0 : Fin 2) * 256 + 1 * k.val = k.val; omega
    | ⟨1, _⟩ => show win0_2.index t (1 : Fin 2) * 128 + 1 * q.val = q.val; omega
  · show V c main_v14 (((cfg0.win 3).blk t).view.emb (ix2 (0 : Fin 1) q)) = V c main_v14 (ix2 (0 : Fin 1) q)
    refine congrArg _ (funext fun a => Fin.ext ?_)
    match a with
    | ⟨0, _⟩ => show win0_3.index t (0 : Fin 2) * 1 + 1 * 0 = 0; omega
    | ⟨1, _⟩ => show win0_3.index t (1 : Fin 2) * 128 + 1 * q.val = q.val; omega

/-- An index of the message array is in point t's block iff each coordinate is in the block's range on its axis. -/
theorem mem_block (t : Fin cfg0.N) (i : S640000x128.Idx) :
    i ∈ ((cfg0.win 4).blk t).view.set ↔ ∀ a : Fin 2, win0_4.index t a * S8000x128.size a ≤ (i a).val
      ∧ (i a).val < win0_4.index t a * S8000x128.size a + S8000x128.size a := by
  show i ∈ ((View.whole main_v15).slice (win0_4.rect t)).set ↔ _
  rw [View.set_slice_whole, Rect.mem_set_unit]
  exact Iff.rfl

/-- Every row of the message array is in the block of the point numbered by the row divided by 8000. -/
theorem covered (i : S640000x128.Idx) :
    ∃ t : Fin cfg0.N, (cfg0.win 4).flush t = true ∧ i ∈ ((cfg0.win 4).blk t).view.set := by
  have hi0 : (i 0).val < 640000 := (i 0).isLt
  have hi1 : (i 1).val < 128 := (i 1).isLt
  obtain ⟨t, ht⟩ : ∃ t : Fin cfg0.N, t.val = (i 0).val / 8000 :=
    ⟨⟨(i 0).val / 8000, by rw [show cfg0.N = 80 from N_0]; omega⟩, rfl⟩
  obtain ⟨-, -, -, -, -, -, -, -, e40, e41⟩ := block_indices t
  refine ⟨t, flush0_4 t, ?_⟩
  rw [mem_block]
  intro a
  match a with
  | ⟨0, _⟩ =>
    show win0_4.index t (0 : Fin 2) * 8000 ≤ (i 0).val ∧ (i 0).val < win0_4.index t (0 : Fin 2) * 8000 + 8000
    omega
  | ⟨1, _⟩ =>
    show win0_4.index t (1 : Fin 2) * 128 ≤ (i 1).val ∧ (i 1).val < win0_4.index t (1 : Fin 2) * 128 + 128
    omega

/-- The message array after the region. -/
theorem messages (c : Dev nD) :
    (dat0 V c).arrAt 4 cfg0.N = edgeMsg (V c main_v13) (V c main_arg1) (V c main_arg2) (V c main_v14) :=
  (dat0 V c).arrAt_eq_of_cover 4 _ (fun t _ => written_back V c t) covered

end Cert.KernelIdeal.EdgeRegion0

end
-- ==== Proof.NodeRegion1.lean ====
/-
  The first layer's updated node features as one array.

  The node kernel runs over 10 grid points. Point t reads rows 5000 t .. 5000 t + 4999 of the summed messages, of the
  column of clipped in-degrees and of the node features, and writes back the same rows of the updated features. What
  it writes back is those rows of the layer's node-update function of the three arrays as the region finds them, and
  the 10 blocks cover the 50000 rows: after the region the output array is that function of the region-entry
  contents, whatever they are.
-/
import proofs.«178299_j57836029608131_1_alg».proof.Proof.Gen.KernelIdeal.Frame
import proofs.«178299_j57836029608131_1_alg».proof.Proof.Payload

set_option maxRecDepth 16384

noncomputable section

namespace Cert.KernelIdeal.NodeRegion1

open Idealize.ShloMosaic Idealize.ShloMosaic.TcCoe Idealize.ShloMosaic.ValueIdx
open Idealize.SL.Sem
open Idealize.ShloMosaic.Pipeline (Dat)
open Cert.KernelIdeal Cert.KernelIdeal.Gen Cert.Layer

variable (V : (c : Dev nD) → (b : Ref sig .tc) → Buf (Elt Ideal) ((c : Thread nD τ).loc b))

theorem origin : (![0, 0] : Fin 2 → Nat) = fun _ => 0 := funext fun a => by fin_cases a <;> rfl

/-- The block index maps over the grid: every window moves with the point along the rows. -/
theorem block_indices : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- What point t writes back is block t of the node-update function of the arrays as the region finds them. -/
theorem written_back (c : Dev nD) (t : Fin cfg1.N) :
    (dat1 V c).flushed 3 t = ((cfg1.win 3).blk t).view.read (Elt Ideal)
      (nodeUpd (V c main_v18) (V c main_v6) (V c main_arg0)) := by
  show (cfg1.win 3).cut (grid1.coords t) ((dat1 V c).after 3 t) = _
  rw [after1_3]
  unfold out1_3
  rw [View.canon_unit_zero origin]
  simp only [View.ld_unit_zero (S := S5000x128) origin, View.ld_unit_zero (S := S5000x1) origin]
  obtain ⟨e00, e01, e10, e11, e20, e21, e30, e31⟩ := block_indices t
  have ht : t.val < 10 := lt_of_lt_of_eq t.isLt (show cfg1.N = 10 from N_1)
  funext j
  obtain ⟨p, q, rfl⟩ : ∃ (p : Fin 5000) (q : Fin 128), j = ix2 p q :=
    ⟨⟨(j 0).val, (j 0).isLt⟩, ⟨(j 1).val, (j 1).isLt⟩, funext fun a => match a with | ⟨0, _⟩ => rfl | ⟨1, _⟩ => rfl⟩
  have hp : p.val < 5000 := p.isLt
  show Gen.k1_pay1 (iblk1 V c 0 t) (iblk1 V c 1 t) (iblk1 V c 2 t) (ix2 p q)
    = nodeUpd (V c main_v18) (V c main_v6) (V c main_arg0) (((cfg1.win 3).blk t).view.emb (ix2 p q))
  have hrow : ((cfg1.win 3).blk t).view.emb (ix2 p q) = ix2 (⟨t.val * 5000 + p.val, by omega⟩ : Fin 50000) q := by
    funext a; apply Fin.ext
    match a with
    | ⟨0, _⟩ => show win1_3.index t (0 : Fin 2) * 5000 + 1 * p.val = t.val * 5000 + p.val; omega
    | ⟨1, _⟩ => show win1_3.index t (1 : Fin 2) * 128 + 1 * q.val = q.val; omega
  rw [hrow]
  refine Payload.block_upd _ _ _ _ _ _ p q _ ?_ ?_ ?_
  · show V c main_v18 (((cfg1.win 0).blk t).view.emb (ix2 p q)) = V c main_v18 (ix2 (⟨t.val * 5000 + p.val, by omega⟩ : Fin 50000) q)
    refine congrArg _ (funext fun a => Fin.ext ?_)
    match a with
    | ⟨0, _⟩ => show win1_0.index t (0 : Fin 2) * 5000 + 1 * p.val = t.val * 5000 + p.val; omega
    | ⟨1, _⟩ => show win1_0.index t (1 : Fin 2) * 128 + 1 * q.val = q.val; omega
  · show V c main_v6 (((cfg1.win 1).blk t).view.emb (ix2 p (0 : Fin 1))) = V c main_v6 (ix2 (⟨t.val * 5000 + p.val, by omega⟩ : Fin 50000) (0 : Fin 1))
    refine congrArg _ (funext fun a => Fin.ext ?_)
    match a with
    | ⟨0, _⟩ => show win1_1.index t (0 : Fin 2) * 5000 + 1 * p.val = t.val * 5000 + p.val; omega
    | ⟨1, _⟩ => show win1_1.index t (1 : Fin 2) * 1 + 1 * 0 = 0; omega
  · show V c main_arg0 (((cfg1.win 2).blk t).view.emb (ix2 p q)) = V c main_arg0 (ix2 (⟨t.val * 5000 + p.val, by omega⟩ : Fin 50000) q)
    refine congrArg _ (funext fun a => Fin.ext ?_)
    match a with
    | ⟨0, _⟩ => show win1_2.index t (0 : Fin 2) * 5000 + 1 * p.val = t.val * 5000 + p.val; omega
    | ⟨1, _⟩ => show win1_2.index t (1 : Fin 2) * 128 + 1 * q.val = q.val; omega

/-- An index of the output array is in point t's block iff each coordinate is in the block's range on its axis. -/
theorem mem_block (t : Fin cfg1.N) (i : S50000x128.Idx) :
    i ∈ ((cfg1.win 3).blk t).view.set ↔ ∀ a : Fin 2, win1_3.index t a * S5000x128.size a ≤ (i a).val
      ∧ (i a).val < win1_3.index t a * S5000x128.size a + S5000x128.size a := by
  show i ∈ ((View.whole main_v19).slice (win1_3.rect t)).set ↔ _
  rw [View.set_slice_whole, Rect.mem_set_unit]
  exact Iff.rfl

/-- Every row of the output array is in the block of the point numbered by the row divided by 5000. -/
theorem covered (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  obtain ⟨t, ht⟩ : ∃ t : Fin cfg1.N, t.val = (i 0).val / 5000 :=
    ⟨⟨(i 0).val / 5000, by rw [show cfg1.N = 10 from N_1]; omega⟩, rfl⟩
  obtain ⟨-, -, -, -, -, -, e30, e31⟩ := block_indices t
  refine ⟨t, flush1_3 t, ?_⟩
  rw [mem_block]
  intro a
  match a with
  | ⟨0, _⟩ =>
    show win1_3.index t (0 : Fin 2) * 5000 ≤ (i 0).val ∧ (i 0).val < win1_3.index t (0 : Fin 2) * 5000 + 5000
    omega
  | ⟨1, _⟩ =>
    show win1_3.index t (1 : Fin 2) * 128 ≤ (i 1).val ∧ (i 1).val < win1_3.index t (1 : Fin 2) * 128 + 128
    omega

/-- The updated node features after the region. -/
theorem updated (c : Dev nD) :
    (dat1 V c).arrAt 3 cfg1.N = nodeUpd (V c main_v18) (V c main_v6) (V c main_arg0) :=
  (dat1 V c).arrAt_eq_of_cover 3 _ (fun t _ => written_back V c t) covered

end Cert.KernelIdeal.NodeRegion1

end
-- ==== Proof.FoldLayer1.lean ====
/-
  The kernel's buffers through the first layer.

  The boundary contents of the kernel's run are a fold: a stretch of host operations is read back operation by
  operation, and a region leaves its output array at what its grid points write back and every other buffer as it was.
  Read at the buffers the first layer uses, from the launch memory onward: the first edge kernel is entered with the
  gathered source rows, the edge features, the first weight and the first bias as a row; it leaves the first layer's
  messages; the host adds them up at the destination nodes; the first node kernel is entered with those sums, the
  column of clipped in-degrees and the node features, and leaves the first layer's output. The arguments and the
  degree column, which nothing writes, are carried along for the second layer.
-/
import proofs.«178299_j57836029608131_1_alg».proof.Proof.Gen.KernelIdeal.Frame
import proofs.«178299_j57836029608131_1_alg».proof.Proof.Stages
import proofs.«178299_j57836029608131_1_alg».proof.Proof.EdgeRegion0
import proofs.«178299_j57836029608131_1_alg».proof.Proof.NodeRegion1
import Idealize.ShloMosaic.Lib.StableHlo.Run

set_option maxRecDepth 16384

noncomputable section

namespace Cert.KernelIdeal.Fold

open Idealize.ShloMosaic Idealize.ShloMosaic.TcCoe Idealize.ShloMosaic.StableHlo
open Idealize.SL.Sem
open Idealize.ShloMosaic.Pipeline (Dat)
open Cert.KernelIdeal Cert.KernelIdeal.Gen Cert.KernelIdeal.Stages Cert.Layer

variable (m : (ℓ : Loc nD τ sig) → Buf (Elt Ideal) ℓ) (ρ : Dev nD → PrngReg) (c : Dev nD)

/-! ## At the first edge kernel's entry -/

theorem entry0_gathered : V1 m ρ c main_v13 = gatherRows (m ((c.tc : Thread nD τ).loc main_arg0)) (m ((c.tc : Thread nD τ).loc main_arg6)) := by
  show StableHlo.after hostOps0 (W0 m ρ c) (Proc.devRef .tc main_v13) = _
  after_results
  rfl
theorem entry0_edges : V1 m ρ c main_arg1 = (m ((c.tc : Thread nD τ).loc main_arg1)) := by
  show StableHlo.after hostOps0 (W0 m ρ c) (Proc.devRef .tc main_arg1) = _
  after_results
theorem entry0_weight : V1 m ρ c main_arg2 = (m ((c.tc : Thread nD τ).loc main_arg2)) := by
  show StableHlo.after hostOps0 (W0 m ρ c) (Proc.devRef .tc main_arg2) = _
  after_results
theorem entry0_bias : V1 m ρ c main_v14 = biasRow (m ((c.tc : Thread nD τ).loc main_arg3)) := by
  show StableHlo.after hostOps0 (W0 m ρ c) (Proc.devRef .tc main_v14) = _
  after_results
  rfl
theorem entry0_degree : W1 m ρ c (Proc.devRef .tc main_v6) = (degreeCol (m ((c.tc : Thread nD τ).loc main_arg7))) := by
  show StableHlo.after hostOps0 (W0 m ρ c) (Proc.devRef .tc main_v6) = _
  after_results
  rfl
theorem entry0_arg0 : W1 m ρ c (Proc.devRef .tc main_arg0) = (m ((c.tc : Thread nD τ).loc main_arg0)) := by
  show StableHlo.after hostOps0 (W0 m ρ c) (Proc.devRef .tc main_arg0) = _
  after_results
theorem entry0_arg4 : W1 m ρ c (Proc.devRef .tc main_arg4) = (m ((c.tc : Thread nD τ).loc main_arg4)) := by
  show StableHlo.after hostOps0 (W0 m ρ c) (Proc.devRef .tc main_arg4) = _
  after_results
theorem entry0_arg5 : W1 m ρ c (Proc.devRef .tc main_arg5) = (m ((c.tc : Thread nD τ).loc main_arg5)) := by
  show StableHlo.after hostOps0 (W0 m ρ c) (Proc.devRef .tc main_arg5) = _
  after_results
theorem entry0_arg6 : W1 m ρ c (Proc.devRef .tc main_arg6) = (m ((c.tc : Thread nD τ).loc main_arg6)) := by
  show StableHlo.after hostOps0 (W0 m ρ c) (Proc.devRef .tc main_arg6) = _
  after_results
theorem entry0_arg7 : W1 m ρ c (Proc.devRef .tc main_arg7) = (m ((c.tc : Thread nD τ).loc main_arg7)) := by
  show StableHlo.after hostOps0 (W0 m ρ c) (Proc.devRef .tc main_arg7) = _
  after_results

/-! ## At the first edge kernel's exit -/

theorem exit0_messages : W2 m ρ c (Proc.devRef .tc main_v15) = (messages (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6))) :=
  (W2_arr m ρ c 4).trans ((EdgeRegion0.messages (V1 m ρ) c).trans (by
    rw [entry0_gathered, entry0_edges, entry0_weight, entry0_bias]; rfl))
theorem exit0_edges : W2 m ρ c (Proc.devRef .tc main_arg1) = (m ((c.tc : Thread nD τ).loc main_arg1)) :=
  (W2_arr m ρ c 1).trans (((dat0 (V1 m ρ) c).arrAt_in 1 rfl _).trans ((A_eq0 (V1 m ρ) c 1).trans (entry0_edges m ρ c)))
theorem exit0_degree : W2 m ρ c (Proc.devRef .tc main_v6) = (degreeCol (m ((c.tc : Thread nD τ).loc main_arg7))) :=
  (W2_of_ne m ρ c main_v6 (by decide)).trans (entry0_degree m ρ c)
theorem exit0_arg0 : W2 m ρ c (Proc.devRef .tc main_arg0) = (m ((c.tc : Thread nD τ).loc main_arg0)) :=
  (W2_of_ne m ρ c main_arg0 (by decide)).trans (entry0_arg0 m ρ c)
theorem exit0_arg4 : W2 m ρ c (Proc.devRef .tc main_arg4) = (m ((c.tc : Thread nD τ).loc main_arg4)) :=
  (W2_of_ne m ρ c main_arg4 (by decide)).trans (entry0_arg4 m ρ c)
theorem exit0_arg5 : W2 m ρ c (Proc.devRef .tc main_arg5) = (m ((c.tc : Thread nD τ).loc main_arg5)) :=
  (W2_of_ne m ρ c main_arg5 (by decide)).trans (entry0_arg5 m ρ c)
theorem exit0_arg6 : W2 m ρ c (Proc.devRef .tc main_arg6) = (m ((c.tc : Thread nD τ).loc main_arg6)) :=
  (W2_of_ne m ρ c main_arg6 (by decide)).trans (entry0_arg6 m ρ c)
theorem exit0_arg7 : W2 m ρ c (Proc.devRef .tc main_arg7) = (m ((c.tc : Thread nD τ).loc main_arg7)) :=
  (W2_of_ne m ρ c main_arg7 (by decide)).trans (entry0_arg7 m ρ c)

/-! ## At the first node kernel's entry -/

theorem entry1_summed : V3 m ρ c main_v18 = segmentSum (m ((c.tc : Thread nD τ).loc main_arg7)) (messages (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6))) := by
  show StableHlo.after hostOps1 (W2 m ρ c) (Proc.devRef .tc main_v18) = _
  after_results
  rw [exit0_arg7, exit0_messages]; rfl
theorem entry1_degree : V3 m ρ c main_v6 = (degreeCol (m ((c.tc : Thread nD τ).loc main_arg7))) := by
  show StableHlo.after hostOps1 (W2 m ρ c) (Proc.devRef .tc main_v6) = _
  after_results
  exact exit0_degree m ρ c
theorem entry1_nodes : V3 m ρ c main_arg0 = (m ((c.tc : Thread nD τ).loc main_arg0)) := by
  show StableHlo.after hostOps1 (W2 m ρ c) (Proc.devRef .tc main_arg0) = _
  after_results
  exact exit0_arg0 m ρ c
theorem entry1_arg1 : W3 m ρ c (Proc.devRef .tc main_arg1) = (m ((c.tc : Thread nD τ).loc main_arg1)) := by
  show StableHlo.after hostOps1 (W2 m ρ c) (Proc.devRef .tc main_arg1) = _
  after_results
  exact exit0_edges m ρ c
theorem entry1_arg4 : W3 m ρ c (Proc.devRef .tc main_arg4) = (m ((c.tc : Thread nD τ).loc main_arg4)) := by
  show StableHlo.after hostOps1 (W2 m ρ c) (Proc.devRef .tc main_arg4) = _
  after_results
  exact exit0_arg4 m ρ c
theorem entry1_arg5 : W3 m ρ c (Proc.devRef .tc main_arg5) = (m ((c.tc : Thread nD τ).loc main_arg5)) := by
  show StableHlo.after hostOps1 (W2 m ρ c) (Proc.devRef .tc main_arg5) = _
  after_results
  exact exit0_arg5 m ρ c
theorem entry1_arg6 : W3 m ρ c (Proc.devRef .tc main_arg6) = (m ((c.tc : Thread nD τ).loc main_arg6)) := by
  show StableHlo.after hostOps1 (W2 m ρ c) (Proc.devRef .tc main_arg6) = _
  after_results
  exact exit0_arg6 m ρ c
theorem entry1_arg7 : W3 m ρ c (Proc.devRef .tc main_arg7) = (m ((c.tc : Thread nD τ).loc main_arg7)) := by
  show StableHlo.after hostOps1 (W2 m ρ c) (Proc.devRef .tc main_arg7) = _
  after_results
  exact exit0_arg7 m ρ c

/-! ## At the first node kernel's exit: the first layer's output -/

theorem exit1_layer : W4 m ρ c (Proc.devRef .tc main_v19) = (layer (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7))) :=
  (W4_arr m ρ c 3).trans ((NodeRegion1.updated (V3 m ρ) c).trans (by
    rw [entry1_summed, entry1_degree, entry1_nodes]; rfl))
theorem exit1_degree : W4 m ρ c (Proc.devRef .tc main_v6) = (degreeCol (m ((c.tc : Thread nD τ).loc main_arg7))) :=
  (W4_arr m ρ c 1).trans (((dat1 (V3 m ρ) c).arrAt_in 1 rfl _).trans ((A_eq1 (V3 m ρ) c 1).trans (entry1_degree m ρ c)))
theorem exit1_arg1 : W4 m ρ c (Proc.devRef .tc main_arg1) = (m ((c.tc : Thread nD τ).loc main_arg1)) :=
  (W4_of_ne m ρ c main_arg1 (by decide)).trans (entry1_arg1 m ρ c)
theorem exit1_arg4 : W4 m ρ c (Proc.devRef .tc main_arg4) = (m ((c.tc : Thread nD τ).loc main_arg4)) :=
  (W4_of_ne m ρ c main_arg4 (by decide)).trans (entry1_arg4 m ρ c)
theorem exit1_arg5 : W4 m ρ c (Proc.devRef .tc main_arg5) = (m ((c.tc : Thread nD τ).loc main_arg5)) :=
  (W4_of_ne m ρ c main_arg5 (by decide)).trans (entry1_arg5 m ρ c)
theorem exit1_arg6 : W4 m ρ c (Proc.devRef .tc main_arg6) = (m ((c.tc : Thread nD τ).loc main_arg6)) :=
  (W4_of_ne m ρ c main_arg6 (by decide)).trans (entry1_arg6 m ρ c)
theorem exit1_arg7 : W4 m ρ c (Proc.devRef .tc main_arg7) = (m ((c.tc : Thread nD τ).loc main_arg7)) :=
  (W4_of_ne m ρ c main_arg7 (by decide)).trans (entry1_arg7 m ρ c)

end Cert.KernelIdeal.Fold

end
-- ==== Proof.EdgeRegion2.lean ====
/-
  The second layer's per-edge messages as one array.

  The edge kernel runs over 80 grid points. Point t reads rows 8000 t .. 8000 t + 7999 of the gathered source features
  and of the edge features, the whole weight and the whole bias row, and writes back rows 8000 t .. 8000 t + 7999 of
  the message array. What it writes back is those rows of the layer's per-edge message function of the four arrays
  as the region finds them, and the 80 blocks cover the 640000 rows: after the region the message array is that
  function of the region-entry contents, whatever they are.
-/
import proofs.«178299_j57836029608131_1_alg».proof.Proof.Gen.KernelIdeal.Frame
import proofs.«178299_j57836029608131_1_alg».proof.Proof.Payload

set_option maxRecDepth 16384

noncomputable section

namespace Cert.KernelIdeal.EdgeRegion2

open Idealize.ShloMosaic Idealize.ShloMosaic.TcCoe Idealize.ShloMosaic.ValueIdx
open Idealize.SL.Sem
open Idealize.ShloMosaic.Pipeline (Dat)
open Cert.KernelIdeal Cert.KernelIdeal.Gen Cert.Layer

variable (V : (c : Dev nD) → (b : Ref sig .tc) → Buf (Elt Ideal) ((c : Thread nD τ).loc b))

theorem origin : (![0, 0] : Fin 2 → Nat) = fun _ => 0 := funext fun a => by fin_cases a <;> rfl

/-- The block index maps over the grid: the two feature windows and the output move with the point along the rows;
    the weight and the bias stay put. -/
theorem block_indices : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- What point t writes back is block t of the message function of the arrays as the region finds them. -/
theorem written_back (c : Dev nD) (t : Fin cfg2.N) :
    (dat2 V c).flushed 4 t = ((cfg2.win 4).blk t).view.read (Elt Ideal)
      (edgeMsg (V c main_v26) (V c main_arg1) (V c main_arg4) (V c main_v27)) := by
  show (cfg2.win 4).cut (grid2.coords t) ((dat2 V c).after 4 t) = _
  rw [after2_4]
  unfold out2_4
  rw [View.canon_unit_zero origin]
  simp only [View.ld_unit_zero (S := S8000x128) origin, View.ld_unit_zero (S := S256x128) origin,
    View.ld_unit_zero (S := S1x128) origin]
  obtain ⟨e00, e01, e10, e11, e20, e21, e30, e31, e40, e41⟩ := block_indices t
  have ht : t.val < 80 := lt_of_lt_of_eq t.isLt (show cfg2.N = 80 from N_2)
  funext j
  obtain ⟨p, q, rfl⟩ : ∃ (p : Fin 8000) (q : Fin 128), j = ix2 p q :=
    ⟨⟨(j 0).val, (j 0).isLt⟩, ⟨(j 1).val, (j 1).isLt⟩, funext fun a => match a with | ⟨0, _⟩ => rfl | ⟨1, _⟩ => rfl⟩
  have hp : p.val < 8000 := p.isLt
  show Gen.k0_pay1 (iblk2 V c 0 t) (iblk2 V c 1 t) (iblk2 V c 2 t) (iblk2 V c 3 t) (ix2 p q)
    = edgeMsg (V c main_v26) (V c main_arg1) (V c main_arg4) (V c main_v27) (((cfg2.win 4).blk t).view.emb (ix2 p q))
  have hrow : ((cfg2.win 4).blk t).view.emb (ix2 p q) = ix2 (⟨t.val * 8000 + p.val, by omega⟩ : Fin 640000) q := by
    funext a; apply Fin.ext
    match a with
    | ⟨0, _⟩ => show win2_4.index t (0 : Fin 2) * 8000 + 1 * p.val = t.val * 8000 + p.val; omega
    | ⟨1, _⟩ => show win2_4.index t (1 : Fin 2) * 128 + 1 * q.val = q.val; omega
  rw [hrow]
  refine Payload.block_msg _ _ _ _ _ _ _ _ p q _ (fun k => ?_) (fun k => ?_) (fun k => ?_) ?_
  · show V c main_v26 (((cfg2.win 0).blk t).view.emb (ix2 p k)) = V c main_v26 (ix2 (⟨t.val * 8000 + p.val, by omega⟩ : Fin 640000) k)
    refine congrArg _ (funext fun a => Fin.ext ?_)
    match a with
    | ⟨0, _⟩ => show win2_0.index t (0 : Fin 2) * 8000 + 1 * p.val = t.val * 8000 + p.val; omega
    | ⟨1, _⟩ => show win2_0.index t (1 : Fin 2) * 128 + 1 * k.val = k.val; omega
  · show V c main_arg1 (((cfg2.win 1).blk t).view.emb (ix2 p k)) = V c main_arg1 (ix2 (⟨t.val * 8000 + p.val, by omega⟩ : Fin 640000) k)
    refine congrArg _ (funext fun a => Fin.ext ?_)
    match a with
    | ⟨0, _⟩ => show win2_1.index t (0 : Fin 2) * 8000 + 1 * p.val = t.val * 8000 + p.val; omega
    | ⟨1, _⟩ => show win2_1.index t (1 : Fin 2) * 128 + 1 * k.val = k.val; omega
  · show V c main_arg4 (((cfg2.win 2).blk t).view.emb (ix2 k q)) = V c main_arg4 (ix2 k q)
    refine congrArg _ (funext fun a => Fin.ext ?_)
    match a with
    | ⟨0, _⟩ => show win2_2.index t (0 : Fin 2) * 256 + 1 * k.val = k.val; omega
    | ⟨1, _⟩ => show win2_2.index t (1 : Fin 2) * 128 + 1 * q.val = q.val; omega
  · show V c main_v27 (((cfg2.win 3).blk t).view.emb (ix2 (0 : Fin 1) q)) = V c main_v27 (ix2 (0 : Fin 1) q)
    refine congrArg _ (funext fun a => Fin.ext ?_)
    match a with
    | ⟨0, _⟩ => show win2_3.index t (0 : Fin 2) * 1 + 1 * 0 = 0; omega
    | ⟨1, _⟩ => show win2_3.index t (1 : Fin 2) * 128 + 1 * q.val = q.val; omega

/-- An index of the message array is in point t's block iff each coordinate is in the block's range on its axis. -/
theorem mem_block (t : Fin cfg2.N) (i : S640000x128.Idx) :
    i ∈ ((cfg2.win 4).blk t).view.set ↔ ∀ a : Fin 2, win2_4.index t a * S8000x128.size a ≤ (i a).val
      ∧ (i a).val < win2_4.index t a * S8000x128.size a + S8000x128.size a := by
  show i ∈ ((View.whole main_v28).slice (win2_4.rect t)).set ↔ _
  rw [View.set_slice_whole, Rect.mem_set_unit]
  exact Iff.rfl

/-- Every row of the message array is in the block of the point numbered by the row divided by 8000. -/
theorem covered (i : S640000x128.Idx) :
    ∃ t : Fin cfg2.N, (cfg2.win 4).flush t = true ∧ i ∈ ((cfg2.win 4).blk t).view.set := by
  have hi0 : (i 0).val < 640000 := (i 0).isLt
  have hi1 : (i 1).val < 128 := (i 1).isLt
  obtain ⟨t, ht⟩ : ∃ t : Fin cfg2.N, t.val = (i 0).val / 8000 :=
    ⟨⟨(i 0).val / 8000, by rw [show cfg2.N = 80 from N_2]; omega⟩, rfl⟩
  obtain ⟨-, -, -, -, -, -, -, -, e40, e41⟩ := block_indices t
  refine ⟨t, flush2_4 t, ?_⟩
  rw [mem_block]
  intro a
  match a with
  | ⟨0, _⟩ =>
    show win2_4.index t (0 : Fin 2) * 8000 ≤ (i 0).val ∧ (i 0).val < win2_4.index t (0 : Fin 2) * 8000 + 8000
    omega
  | ⟨1, _⟩ =>
    show win2_4.index t (1 : Fin 2) * 128 ≤ (i 1).val ∧ (i 1).val < win2_4.index t (1 : Fin 2) * 128 + 128
    omega

/-- The message array after the region. -/
theorem messages (c : Dev nD) :
    (dat2 V c).arrAt 4 cfg2.N = edgeMsg (V c main_v26) (V c main_arg1) (V c main_arg4) (V c main_v27) :=
  (dat2 V c).arrAt_eq_of_cover 4 _ (fun t _ => written_back V c t) covered

end Cert.KernelIdeal.EdgeRegion2

end
-- ==== Proof.NodeRegion3.lean ====
/-
  The second layer's updated node features as one array.

  The node kernel runs over 10 grid points. Point t reads rows 5000 t .. 5000 t + 4999 of the summed messages, of the
  column of clipped in-degrees and of the node features, and writes back the same rows of the updated features. What
  it writes back is those rows of the layer's node-update function of the three arrays as the region finds them, and
  the 10 blocks cover the 50000 rows: after the region the output array is that function of the region-entry
  contents, whatever they are.
-/
import proofs.«178299_j57836029608131_1_alg».proof.Proof.Gen.KernelIdeal.Frame
import proofs.«178299_j57836029608131_1_alg».proof.Proof.Payload

set_option maxRecDepth 16384

noncomputable section

namespace Cert.KernelIdeal.NodeRegion3

open Idealize.ShloMosaic Idealize.ShloMosaic.TcCoe Idealize.ShloMosaic.ValueIdx
open Idealize.SL.Sem
open Idealize.ShloMosaic.Pipeline (Dat)
open Cert.KernelIdeal Cert.KernelIdeal.Gen Cert.Layer

variable (V : (c : Dev nD) → (b : Ref sig .tc) → Buf (Elt Ideal) ((c : Thread nD τ).loc b))

theorem origin : (![0, 0] : Fin 2 → Nat) = fun _ => 0 := funext fun a => by fin_cases a <;> rfl

/-- The block index maps over the grid: every window moves with the point along the rows. -/
theorem block_indices : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0 :=
  (by decide +kernel : ∀ t : Fin grid3.N, _)

/-- What point t writes back is block t of the node-update function of the arrays as the region finds them. -/
theorem written_back (c : Dev nD) (t : Fin cfg3.N) :
    (dat3 V c).flushed 3 t = ((cfg3.win 3).blk t).view.read (Elt Ideal)
      (nodeUpd (V c main_v31) (V c main_v6) (V c main_v19)) := by
  show (cfg3.win 3).cut (grid3.coords t) ((dat3 V c).after 3 t) = _
  rw [after3_3]
  unfold out3_3
  rw [View.canon_unit_zero origin]
  simp only [View.ld_unit_zero (S := S5000x128) origin, View.ld_unit_zero (S := S5000x1) origin]
  obtain ⟨e00, e01, e10, e11, e20, e21, e30, e31⟩ := block_indices t
  have ht : t.val < 10 := lt_of_lt_of_eq t.isLt (show cfg3.N = 10 from N_3)
  funext j
  obtain ⟨p, q, rfl⟩ : ∃ (p : Fin 5000) (q : Fin 128), j = ix2 p q :=
    ⟨⟨(j 0).val, (j 0).isLt⟩, ⟨(j 1).val, (j 1).isLt⟩, funext fun a => match a with | ⟨0, _⟩ => rfl | ⟨1, _⟩ => rfl⟩
  have hp : p.val < 5000 := p.isLt
  show Gen.k3_pay1 (iblk3 V c 0 t) (iblk3 V c 1 t) (iblk3 V c 2 t) (ix2 p q)
    = nodeUpd (V c main_v31) (V c main_v6) (V c main_v19) (((cfg3.win 3).blk t).view.emb (ix2 p q))
  have hrow : ((cfg3.win 3).blk t).view.emb (ix2 p q) = ix2 (⟨t.val * 5000 + p.val, by omega⟩ : Fin 50000) q := by
    funext a; apply Fin.ext
    match a with
    | ⟨0, _⟩ => show win3_3.index t (0 : Fin 2) * 5000 + 1 * p.val = t.val * 5000 + p.val; omega
    | ⟨1, _⟩ => show win3_3.index t (1 : Fin 2) * 128 + 1 * q.val = q.val; omega
  rw [hrow]
  refine Payload.block_upd2 _ _ _ _ _ _ p q _ ?_ ?_ ?_
  · show V c main_v31 (((cfg3.win 0).blk t).view.emb (ix2 p q)) = V c main_v31 (ix2 (⟨t.val * 5000 + p.val, by omega⟩ : Fin 50000) q)
    refine congrArg _ (funext fun a => Fin.ext ?_)
    match a with
    | ⟨0, _⟩ => show win3_0.index t (0 : Fin 2) * 5000 + 1 * p.val = t.val * 5000 + p.val; omega
    | ⟨1, _⟩ => show win3_0.index t (1 : Fin 2) * 128 + 1 * q.val = q.val; omega
  · show V c main_v6 (((cfg3.win 1).blk t).view.emb (ix2 p (0 : Fin 1))) = V c main_v6 (ix2 (⟨t.val * 5000 + p.val, by omega⟩ : Fin 50000) (0 : Fin 1))
    refine congrArg _ (funext fun a => Fin.ext ?_)
    match a with
    | ⟨0, _⟩ => show win3_1.index t (0 : Fin 2) * 5000 + 1 * p.val = t.val * 5000 + p.val; omega
    | ⟨1, _⟩ => show win3_1.index t (1 : Fin 2) * 1 + 1 * 0 = 0; omega
  · show V c main_v19 (((cfg3.win 2).blk t).view.emb (ix2 p q)) = V c main_v19 (ix2 (⟨t.val * 5000 + p.val, by omega⟩ : Fin 50000) q)
    refine congrArg _ (funext fun a => Fin.ext ?_)
    match a with
    | ⟨0, _⟩ => show win3_2.index t (0 : Fin 2) * 5000 + 1 * p.val = t.val * 5000 + p.val; omega
    | ⟨1, _⟩ => show win3_2.index t (1 : Fin 2) * 128 + 1 * q.val = q.val; omega

/-- An index of the output array is in point t's block iff each coordinate is in the block's range on its axis. -/
theorem mem_block (t : Fin cfg3.N) (i : S50000x128.Idx) :
    i ∈ ((cfg3.win 3).blk t).view.set ↔ ∀ a : Fin 2, win3_3.index t a * S5000x128.size a ≤ (i a).val
      ∧ (i a).val < win3_3.index t a * S5000x128.size a + S5000x128.size a := by
  show i ∈ ((View.whole main_v32).slice (win3_3.rect t)).set ↔ _
  rw [View.set_slice_whole, Rect.mem_set_unit]
  exact Iff.rfl

/-- Every row of the output array is in the block of the point numbered by the row divided by 5000. -/
theorem covered (i : S50000x128.Idx) :
    ∃ t : Fin cfg3.N, (cfg3.win 3).flush t = true ∧ i ∈ ((cfg3.win 3).blk t).view.set := by
  have hi0 : (i 0).val < 50000 := (i 0).isLt
  have hi1 : (i 1).val < 128 := (i 1).isLt
  obtain ⟨t, ht⟩ : ∃ t : Fin cfg3.N, t.val = (i 0).val / 5000 :=
    ⟨⟨(i 0).val / 5000, by rw [show cfg3.N = 10 from N_3]; omega⟩, rfl⟩
  obtain ⟨-, -, -, -, -, -, e30, e31⟩ := block_indices t
  refine ⟨t, flush3_3 t, ?_⟩
  rw [mem_block]
  intro a
  match a with
  | ⟨0, _⟩ =>
    show win3_3.index t (0 : Fin 2) * 5000 ≤ (i 0).val ∧ (i 0).val < win3_3.index t (0 : Fin 2) * 5000 + 5000
    omega
  | ⟨1, _⟩ =>
    show win3_3.index t (1 : Fin 2) * 128 ≤ (i 1).val ∧ (i 1).val < win3_3.index t (1 : Fin 2) * 128 + 128
    omega

/-- The updated node features after the region. -/
theorem updated (c : Dev nD) :
    (dat3 V c).arrAt 3 cfg3.N = nodeUpd (V c main_v31) (V c main_v6) (V c main_v19) :=
  (dat3 V c).arrAt_eq_of_cover 3 _ (fun t _ => written_back V c t) covered

end Cert.KernelIdeal.NodeRegion3

end
-- ==== Proof.FoldLayer2.lean ====
/-
  The kernel's buffers through the second layer, and its result.

  The second edge kernel is entered with the rows of the first layer's output gathered at the source indices, the edge
  features, the second weight and the second bias as a row; it leaves the second layer's messages; the host adds them
  up at the destination nodes; the second node kernel is entered with those sums, the same column of clipped
  in-degrees and the first layer's output, and leaves the result: the layer applied twice.
-/
import proofs.«178299_j57836029608131_1_alg».proof.Proof.FoldLayer1
import proofs.«178299_j57836029608131_1_alg».proof.Proof.EdgeRegion2
import proofs.«178299_j57836029608131_1_alg».proof.Proof.NodeRegion3

set_option maxRecDepth 16384

noncomputable section

namespace Cert.KernelIdeal.Fold

open Idealize.ShloMosaic Idealize.ShloMosaic.TcCoe Idealize.ShloMosaic.StableHlo
open Idealize.SL.Sem
open Idealize.ShloMosaic.Pipeline (Dat)
open Cert.KernelIdeal Cert.KernelIdeal.Gen Cert.KernelIdeal.Stages Cert.Layer

variable (m : (ℓ : Loc nD τ sig) → Buf (Elt Ideal) ℓ) (ρ : Dev nD → PrngReg) (c : Dev nD)

/-! ## At the second edge kernel's entry -/

theorem entry2_gathered : V5 m ρ c main_v26 = gatherRows (layer (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7))) (m ((c.tc : Thread nD τ).loc main_arg6)) := by
  show StableHlo.after hostOps2 (W4 m ρ c) (Proc.devRef .tc main_v26) = _
  after_results
  rw [exit1_layer, exit1_arg6]; rfl
theorem entry2_edges : V5 m ρ c main_arg1 = (m ((c.tc : Thread nD τ).loc main_arg1)) := by
  show StableHlo.after hostOps2 (W4 m ρ c) (Proc.devRef .tc main_arg1) = _
  after_results
  exact exit1_arg1 m ρ c
theorem entry2_weight : V5 m ρ c main_arg4 = (m ((c.tc : Thread nD τ).loc main_arg4)) := by
  show StableHlo.after hostOps2 (W4 m ρ c) (Proc.devRef .tc main_arg4) = _
  after_results
  exact exit1_arg4 m ρ c
theorem entry2_bias : V5 m ρ c main_v27 = biasRow (m ((c.tc : Thread nD τ).loc main_arg5)) := by
  show StableHlo.after hostOps2 (W4 m ρ c) (Proc.devRef .tc main_v27) = _
  after_results
  rw [exit1_arg5]; rfl
theorem entry2_degree : W5 m ρ c (Proc.devRef .tc main_v6) = (degreeCol (m ((c.tc : Thread nD τ).loc main_arg7))) := by
  show StableHlo.after hostOps2 (W4 m ρ c) (Proc.devRef .tc main_v6) = _
  after_results
  exact exit1_degree m ρ c
theorem entry2_layer1 : W5 m ρ c (Proc.devRef .tc main_v19) = (layer (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7))) := by
  show StableHlo.after hostOps2 (W4 m ρ c) (Proc.devRef .tc main_v19) = _
  after_results
  exact exit1_layer m ρ c
theorem entry2_arg7 : W5 m ρ c (Proc.devRef .tc main_arg7) = (m ((c.tc : Thread nD τ).loc main_arg7)) := by
  show StableHlo.after hostOps2 (W4 m ρ c) (Proc.devRef .tc main_arg7) = _
  after_results
  exact exit1_arg7 m ρ c

/-! ## At the second edge kernel's exit -/

theorem exit2_messages : W6 m ρ c (Proc.devRef .tc main_v28) = (messages (layer (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7))) (m ((c.tc : Thread nD τ).loc main_arg1)) (m ((c.tc : Thread nD τ).loc main_arg4)) (m ((c.tc : Thread nD τ).loc main_arg5)) (m ((c.tc : Thread nD τ).loc main_arg6))) :=
  (W6_arr m ρ c 4).trans ((EdgeRegion2.messages (V5 m ρ) c).trans (by
    rw [entry2_gathered, entry2_edges, entry2_weight, entry2_bias]; rfl))
theorem exit2_degree : W6 m ρ c (Proc.devRef .tc main_v6) = (degreeCol (m ((c.tc : Thread nD τ).loc main_arg7))) :=
  (W6_of_ne m ρ c main_v6 (by decide)).trans (entry2_degree m ρ c)
theorem exit2_layer1 : W6 m ρ c (Proc.devRef .tc main_v19) = (layer (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7))) :=
  (W6_of_ne m ρ c main_v19 (by decide)).trans (entry2_layer1 m ρ c)
theorem exit2_arg7 : W6 m ρ c (Proc.devRef .tc main_arg7) = (m ((c.tc : Thread nD τ).loc main_arg7)) :=
  (W6_of_ne m ρ c main_arg7 (by decide)).trans (entry2_arg7 m ρ c)

/-! ## At the second node kernel's entry -/

theorem entry3_summed : V7 m ρ c main_v31 = segmentSum (m ((c.tc : Thread nD τ).loc main_arg7)) (messages (layer (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7))) (m ((c.tc : Thread nD τ).loc main_arg1)) (m ((c.tc : Thread nD τ).loc main_arg4)) (m ((c.tc : Thread nD τ).loc main_arg5)) (m ((c.tc : Thread nD τ).loc main_arg6))) := by
  show StableHlo.after hostOps3 (W6 m ρ c) (Proc.devRef .tc main_v31) = _
  after_results
  rw [exit2_arg7, exit2_messages]; rfl
theorem entry3_degree : V7 m ρ c main_v6 = (degreeCol (m ((c.tc : Thread nD τ).loc main_arg7))) := by
  show StableHlo.after hostOps3 (W6 m ρ c) (Proc.devRef .tc main_v6) = _
  after_results
  exact exit2_degree m ρ c
theorem entry3_nodes : V7 m ρ c main_v19 = (layer (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7))) := by
  show StableHlo.after hostOps3 (W6 m ρ c) (Proc.devRef .tc main_v19) = _
  after_results
  exact exit2_layer1 m ρ c

/-! ## The result -/

/-- The result buffer at the last boundary is the layer applied twice to the launch arrays. -/
theorem result : W8 m ρ c (Proc.devRef .tc main_v32)
    = layer (layer (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7))) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) :=
  (W8_arr m ρ c 3).trans ((NodeRegion3.updated (V7 m ρ) c).trans (by
    rw [entry3_summed, entry3_degree, entry3_nodes]; rfl))

end Cert.KernelIdeal.Fold

end
-- ==== Proof.LibVectorAsMatrix.lean ====
/-
  A length-n vector reshaped to a 1 × n row or to an n × 1 column, read at an index.

  A reshape keeps row-major positions. Entry (0, q) of the row has position q, and entry (r, 0) of the column has
  position r, so each reads the vector at its free coordinate. This is what a bias `b.reshape(1, n)` or a per-row
  scale `s.reshape(n, 1)` holds, for any element type.
-/
import Idealize.ShloMosaic.Lib.Pipeline.Value
import Idealize.ShloMosaic.Lib.ValueIdx

noncomputable section

namespace Idealize.ShloMosaic.VectorAsMatrix

open Idealize.ShloMosaic Idealize.ShloMosaic.ValueIdx

variable {α : Type} {n : Nat}

/-- [n] reshaped to [1, n]: entry (0, q) is the vector's entry q. -/
theorem row_apply (v : (⟨1, ![n]⟩ : Shape).Idx → α) (h : (⟨1, ![n]⟩ : Shape).ShapeCasts ⟨2, ![1, n]⟩) (p : Fin 1)
    (q : Fin n) : shapeCast ⟨2, ![1, n]⟩ v h (ix2 p q) = v (ix1 q) :=
  shapeCast_apply v h (ix2 p q) (ix1 q) (by
    rw [Shape.rowMajor_val_one, Shape.rowMajor_val_two]
    have hp : p = 0 := Fin.ext (by have := p.isLt; omega)
    subst hp
    show q.val = 0 * n + q.val
    omega)

/-- [n] reshaped to [n, 1]: entry (r, 0) is the vector's entry r. -/
theorem col_apply (v : (⟨1, ![n]⟩ : Shape).Idx → α) (h : (⟨1, ![n]⟩ : Shape).ShapeCasts ⟨2, ![n, 1]⟩) (r : Fin n)
    (q : Fin 1) : shapeCast ⟨2, ![n, 1]⟩ v h (ix2 r q) = v (ix1 r) :=
  shapeCast_apply v h (ix2 r q) (ix1 r) (by
    rw [Shape.rowMajor_val_one, Shape.rowMajor_val_two]
    have hq : q = 0 := Fin.ext (by have := q.isLt; omega)
    subst hq
    show r.val = r.val * 1 + 0
    omega)

end Idealize.ShloMosaic.VectorAsMatrix

end
-- ==== Proof.RefLayer.lean ====
/-
  The reference's layer, and that it is the kernel's.

  The reference computes a layer with host operations only: gather the node features at the source indices (a negative
  index wrapped), lay them beside the edge features, multiply by the weight, add the bias repeated down the rows,
  scatter-add at the destination indices, divide by the in-degree clipped at one, add the node features, tanh. Its
  result is that layer applied twice. The kernel's layer is the same composition; the one place the two spellings
  differ is the bias as a one-row matrix, a reshape on the kernel's side and a broadcast on the reference's, and
  both rows read the bias at the column.
-/
import proofs.«178299_j57836029608131_1_alg».proof.Proof.Gen.ReferenceIdeal.Run
import proofs.«178299_j57836029608131_1_alg».proof.Proof.Stages
import proofs.«178299_j57836029608131_1_alg».proof.Proof.LibVectorAsMatrix
import proofs.«178299_j57836029608131_1_alg».proof.Proof.LibHostBroadcast

set_option maxRecDepth 16384

noncomputable section

namespace Cert.ReferenceIdeal.RefLayer

open Idealize.ShloMosaic Idealize.ShloMosaic.TcCoe Idealize.ShloMosaic.ValueIdx Idealize.SL.Sem
open Cert.ReferenceIdeal Cert.ReferenceIdeal.Facts₀

abbrev Nodes := FVec Ideal S50000x128 .f32
abbrev Edges := FVec Ideal S640000x128 .f32
abbrev Weight := FVec Ideal S256x128 .f32
abbrev Bias := FVec Ideal S128 .f32
abbrev Indices := IVec S640000 32

/-- One layer, as the reference spells it. -/
def layer (h : Nodes) (ef : Edges) (W : Weight) (b : Bias) (src dst : Indices) : Nodes :=
  Host.tanh (addf (Host.divf (Host.scatterAdd (F := Ideal) scatter_S50000x128_S640000x1_S640000x128_1_0_0_1 (broadcastInDim S50000x128 ![] bcast_S_S50000x128 (constant (F := Ideal) S_ .f32 0x00000000#32)) (broadcastInDim S640000x1 ![0] bcast_S640000_S640000x1_0 dst) (addf (Host.dotGeneral dot_S640000x256_S256x128_S640000x128_1_0_0_1_n_n none (concatenate S640000x256 1 [⟨S640000x128, (Host.gather gather_S50000x128_S640000x1_S640000x128_1_0_n_n_0_1_1128 h (broadcastInDim S640000x1 ![0] bcast_S640000_S640000x1_0 (select (cmpi .slt src (broadcastInDim S640000 ![] bcast_S_S640000 (constantI S_ 32 0#32))) (addi src (broadcastInDim S640000 ![] bcast_S_S640000 (constantI S_ 32 50000#32))) src)))⟩, ⟨S640000x128, ef⟩] concatenates_S640000x128_S640000x128_S640000x256_d1) W) (broadcastInDim S640000x128 ![0, 1] bcast_S1x128_S640000x128_0_1 (broadcastInDim S1x128 ![1] bcast_S128_S1x128_1 b)))) (broadcastInDim S50000x128 ![0, 1] bcast_S50000x1_S50000x128_0_1 (broadcastInDim S50000x1 ![0] bcast_S50000_S50000x1_0 (maximumf (F := Ideal) (Host.scatterAdd (F := Ideal) scatter_S50000_S640000x1_S640000_n_0_0_1 (broadcastInDim S50000 ![] bcast_S_S50000 (constant (F := Ideal) S_ .f32 0x00000000#32)) (broadcastInDim S640000x1 ![0] bcast_S640000_S640000x1_0 dst) (broadcastInDim S640000 ![] bcast_S_S640000 (constant (F := Ideal) S_ .f32 0x3F800000#32))) (broadcastInDim S50000 ![] bcast_S_S50000 (constant (F := Ideal) S_ .f32 0x3F800000#32)))))) h)

/-- The reference's result is its layer applied twice to the launch arrays. -/
theorem result_eq (m : (ℓ : Loc nD τ sig) → Buf (Elt Ideal) ℓ) (c : Dev nD) :
    Cert.ReferenceIdeal.Value.res_main_v51 (F := Ideal) m c
      = layer (layer (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg6)) (m ((c.tc : Thread nD τ).loc main_arg7)))
        (m ((c.tc : Thread nD τ).loc main_arg1)) (m ((c.tc : Thread nD τ).loc main_arg4))
        (m ((c.tc : Thread nD τ).loc main_arg5)) (m ((c.tc : Thread nD τ).loc main_arg6))
        (m ((c.tc : Thread nD τ).loc main_arg7)) := by
  unfold Cert.ReferenceIdeal.Value.res_main_v51 layer
  rfl

/-- The bias as a one-row matrix: the reshape and the broadcast are one row. -/
theorem bias_row_eq (b : Bias) :
    Cert.KernelIdeal.Stages.biasRow b = broadcastInDim S1x128 ![1] bcast_S128_S1x128_1 b := by
  funext j
  obtain ⟨p, q, rfl⟩ : ∃ (p : Fin 1) (q : Fin 128), j = ix2 p q := ⟨j 0, j 1, eq_ix2 j⟩
  exact (VectorAsMatrix.row_apply (n := 128) b Cert.KernelIdeal.Facts₀.shapeCasts_S128_S1x128 p q).trans
    (HostBroadcast.vec_row_apply (b := 128) bcast_S128_S1x128_1 b (ix2 p q)).symm

/-- The kernel's layer is the reference's. -/
theorem layer_eq (h : Nodes) (ef : Edges) (W : Weight) (b : Bias) (src dst : Indices) :
    Cert.KernelIdeal.Stages.layer h ef W b src dst = layer h ef W b src dst := by
  unfold Cert.KernelIdeal.Stages.layer Cert.KernelIdeal.Stages.messages Cert.KernelIdeal.Stages.segmentSum
    Cert.KernelIdeal.Stages.gatherRows Cert.KernelIdeal.Stages.degreeCol Cert.Layer.nodeUpd Cert.Layer.edgeMsg layer
  rw [bias_row_eq b]
  rfl

end Cert.ReferenceIdeal.RefLayer

end
-- ==== Proof.lean ====
/-
  Two layers of graph message passing, a kernel against its reference, on the extended reals.

  One layer takes node features h (50000 x 128), edge features (640000 x 128), a weight (256 x 128), a bias (128) and
  the edges' source and destination indices. For every edge the source node's features and the edge's features are
  laid side by side and multiplied into the weight, and the bias is added; the messages are added up at their
  destination nodes; each node's sum is divided by its in-degree clipped below at one; the node's own features are
  added and the result goes through tanh. The program applies the layer twice, the second time to the first's output
  with the second weight and bias.

  The kernel computes the per-edge product and the node update in two pipelined kernels per layer, over blocks of
  8000 edges and of 5000 nodes, and leaves the gather, the scatter-add and the in-degree to the host; the reference
  computes everything with whole-array host operations. On the extended reals a change of float format is the
  identity and a block-by-block product is the rows of the whole product, so each kernel's output array is the
  reference's whole-array function of the arrays the kernel is entered with; the gather and the scatter-add are the
  same host operations on both sides, applied to equal arrays. Nothing in the argument moves a factor across a sum
  or cancels, so the finiteness of the inputs is never used.

  The three frames: the kernel's two are its generated frames, the reference's is its generated run with the result
  dropped. The idealization rewrote no operation, so there is nothing to preserve.
-/
import proofs.«178299_j57836029608131_1_alg».proof.Defs
import proofs.«178299_j57836029608131_1_alg».proof.Proof.Gen.Kernel
import proofs.«178299_j57836029608131_1_alg».proof.Proof.Gen.Kernel.Frame
import proofs.«178299_j57836029608131_1_alg».proof.Proof.Gen.KernelIdeal
import proofs.«178299_j57836029608131_1_alg».proof.Proof.Gen.KernelIdeal.Frame
import proofs.«178299_j57836029608131_1_alg».proof.Proof.Gen.ReferenceIdeal
import proofs.«178299_j57836029608131_1_alg».proof.Proof.Gen.ReferenceIdeal.Run
import proofs.«178299_j57836029608131_1_alg».proof.Proof.Gen.Pre_finite_inputs
import proofs.«178299_j57836029608131_1_alg».proof.Proof.KernelRun
import proofs.«178299_j57836029608131_1_alg».proof.Proof.FoldLayer2
import proofs.«178299_j57836029608131_1_alg».proof.Proof.RefLayer

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the layer applied twice to the launch arrays. -/
theorem algebraic : Cert.algebraic_KernelIdeal_ReferenceIdeal := by
  intro m ρ m' ρ' _ hagree
  refine ⟨fun c => Cert.KernelIdeal.Stages.layer (Cert.KernelIdeal.Stages.layer (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)))
      (m ((c.tc : Thread Cert.KernelIdeal.nD Cert.KernelIdeal.τ).loc Cert.KernelIdeal.main_arg1)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.KernelIdeal.Fold.result m ρ c), (h c).2⟩)
      (Cert.KernelIdeal.Named.run (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, -⟩ := hagree c
    rw [Cert.ReferenceIdeal.RefLayer.result_eq, e0, e1, e2, e3, e4, e5, e6, e7]
    dsimp only
    rw [Cert.ReferenceIdeal.RefLayer.layer_eq, Cert.ReferenceIdeal.RefLayer.layer_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
